-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S1x256x1024 : Shape := ⟨3, ![1, 256, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S3072, .f32⟩
  | .hbm, ⟨19, _⟩ => ⟨S1x3072, .f32⟩
  | .hbm, ⟨20, _⟩ => ⟨S8192x1024, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  bcast_S_S1024 : S_.BroadcastsInDim S1024 (![] : Fin 0 → Fin S1024.rank)
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x512x1024_S1x256x1024_0_0_0 : ∀ a, (![0, 0, 0] : Fin 3 → Nat) a + S1x256x1024.size a ≤ S1x512x1024.size a
  h_S1x256x1024 : 0 < S1x256x1024.numel
  shapeCasts_S1x256x1024_S256x1024 : S1x256x1024.ShapeCasts S256x1024
  inb_S1x512x1024_S1x256x1024_0_256_0 : ∀ a, (![0, 256, 0] : Fin 3 → Nat) a + S1x256x1024.size a ≤ S1x512x1024.size a
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x3072_S512x3072_1_0_0_1_n_n_wf : DotDims.WF S512x1024 S1024x3072 S512x3072 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v12) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.BitsRegion0.lean ====
/-
  The projection call (the first of the program's two pipelined calls) at an arbitrary entry contents `V` of the
  TensorCore's buffers, at any float instance.  Each of its sixteen grid points multiplies a block of 512 rows of the
  flattened input by the whole 1024×3072 weight matrix, adds the bias row, and stores the three 1024-column thirds of
  the result into three output blocks.  Stated here: what each output block holds after the body as a function of the
  three input blocks, the body's triple, the pipeline's proof data, and the body obligation at every point.
-/
import proofs.«173296_j13632226198096_2_alg».proof.Proof.Gen.Kernel.Launch
import proofs.«173296_j13632226198096_2_alg».proof.Proof.Gen.Kernel.Skeleton
import proofs.«173296_j13632226198096_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: every load and store takes a buffer whole. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three output blocks: the query, key and value thirds of the affine product. -/
def out0_3 (x0 : Vec F S512x1024 .bf16) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .bf16) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .bf16) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- One whole-block store covers the block. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging memrefs: the three inputs at read contents, the three outputs at anything, runs to the
    continuation with the inputs as they were and each output at its third of the product. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection pipeline on core `c`: the arrays as the call finds them; after the body each
    input's buffer at its block and each output's at its third of the product of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  The attention call (the second of the program's two pipelined calls) at an arbitrary entry contents `V` of the
  TensorCore's buffers, at any float instance.  Its grid is 4 sequences by 4 tiles of 512 query rows.  A point holds
  one tile of queries and the whole key and value arrays of its sequence; it treats the two halves of 256 query rows
  alike — scores against every key row, the row-wise shifted exponentials over their row sums, the weighted sum of the
  value rows — and stores the two results into the two halves of the output block.  Stated here: what the output block
  holds after the body as a function of the three input blocks, the body's triple, the pipeline's proof data, and the
  body obligation at every point.
-/
import proofs.«173296_j13632226198096_2_alg».proof.Proof.Gen.Kernel.Launch
import proofs.«173296_j13632226198096_2_alg».proof.Proof.Gen.Kernel.Skeleton
import proofs.«173296_j13632226198096_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not (the key and
    value blocks are fetched once per sequence and stay in place while the query tiles sweep). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: the key and value blocks whole; the lower and upper halves of 256 rows of a 512-row block
    (of the query block when loaded, of the output block when stored). -/
abbrev r1_kv : Rect S1x2048x1024 := Rect.unit (s := S1x2048x1024) ![0, 0, 0] S1x2048x1024.size inb_S1x2048x1024_S1x2048x1024_0_0_0
abbrev r1_lo : Rect S1x512x1024 := Rect.unit (s := S1x512x1024) ![0, 0, 0] S1x256x1024.size inb_S1x512x1024_S1x256x1024_0_0_0
abbrev r1_hi : Rect S1x512x1024 := Rect.unit (s := S1x512x1024) ![0, 256, 0] S1x256x1024.size inb_S1x512x1024_S1x256x1024_0_256_0

/-- What the body leaves in the output block: its two stores as pieces, the last first — the upper half from the upper
    half of the queries, the lower half from the lower half. -/
def out1_3 (x0 : Vec F S1x512x1024 .bf16) (x1 : Vec F S1x2048x1024 .bf16) (x2 : Vec F S1x2048x1024 .bf16) : Vec F S1x512x1024 .f32 :=
  View.canon [⟨r1_hi, k1_pay1 (k1_pay4 (View.ld x1 r1_kv) (View.ld x2 r1_kv) (View.ld x0 r1_hi))⟩,
    ⟨r1_lo, k1_pay5 (View.ld x1 r1_kv) (View.ld x2 r1_kv) (View.ld x0 r1_lo)⟩]

/-- The two half-block stores tile the block, so they cover it. -/
theorem cover1 (p0 : Vec F S1x256x1024 .f32) (p1 : Vec F S1x256x1024 .f32) (y : S1x512x1024.Idx) :
    ∃ pc ∈ ([⟨r1_hi, p0⟩, ⟨r1_lo, p1⟩] : List (View.Piece (Elt F) S1x512x1024 .f32)), y ∈ pc.1.set :=
  View.cover_of_tiled [⟨r1_hi, p0⟩, ⟨r1_lo, p1⟩] S1x256x1024.size (by rfl) y

set_option maxHeartbeats 1000000 in
/-- The body on whole staging memrefs: the three inputs at read contents, the output at anything, runs to the
    continuation with the inputs as they were and the output at the two halves' results. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _ _)

/-- The proof data of the attention pipeline on core `c`: the arrays as the call finds them; after the body each
    input's buffer at its block and the output's at the two halves' results of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The whole program as five boundaries: the launch memory, the contents after the host operations that prepare the
  operands (the three weight matrices transposed, the query's scaled by 1/32, joined side by side; the biases likewise
  joined; the input flattened to rows), after the projection call, after the three reshapes back to sequences, and
  after the attention call.  Each pipelined call changes only its output arrays, which end at what its write-backs
  leave; every other buffer is as entered.  The run: from any memory with zero counters every weakly fair execution
  terminates without a fault with every unscoped buffer at the last boundary's contents — in particular each argument
  as launched and the result array at what the attention call's write-backs leave.
-/
import proofs.«173296_j13632226198096_2_alg».proof.Proof.Gen.Kernel.Launch
import proofs.«173296_j13632226198096_2_alg».proof.Proof.Gen.Kernel.Skeleton
import proofs.«173296_j13632226198096_2_alg».proof.Proof.Gen.Kernel.Points
import proofs.«173296_j13632226198096_2_alg».proof.Proof.Gen.Kernel.Regions
import proofs.«173296_j13632226198096_2_alg».proof.Proof.BitsRegion0
import proofs.«173296_j13632226198096_2_alg».proof.Proof.BitsRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
/-- After the preparing host operations: what the projection call is entered from. -/
abbrev B1 : Dev nD → Valuation τ sig (Elt F) := fun c => StableHlo.after hostOps0 (B0 m ρ c)
/-- The same read at the TensorCore's references. -/
abbrev E0 : (c : Dev nD) → (b : Ref sig .tc) → Buf (Elt F) ((c : Thread nD τ).loc b) := fun c b => B1 m ρ c b
/-- After the projection call: its arrays at what the pipeline leaves, every other buffer as entered. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X0 : (c : Dev nD) → (b : Ref sig .tc) → Buf (Elt F) ((c : Thread nD τ).loc b) := fun c b => B2 m ρ c b
theorem hF0 (c : Dev nD) (w : Fin cfg0.W) : (dat0 (E0 m ρ) c).arrAt w cfg0.N = X0 m ρ c (Pipeline.arrRef spec0 w) :=
  (B2_arr m ρ c w).symm
theorem hrest0 (c : Dev nD) : ∀ b, b ∉ Finset.univ.image (Pipeline.arrRef spec0) → X0 m ρ c b = E0 m ρ c b :=
  fun b hb => B2_of_ne m ρ c b fun w e => hb (Finset.mem_image.mpr ⟨w, Finset.mem_univ _, e⟩)

/-- After the reshapes: what the attention call is entered from. -/
abbrev B3 : Dev nD → Valuation τ sig (Elt F) := fun c => StableHlo.after hostOps1 (B2 m ρ c)
abbrev E1 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X1 : (c : Dev nD) → (b : Ref sig .tc) → Buf (Elt F) ((c : Thread nD τ).loc b) := fun c b => B4 m ρ c b
theorem hF1 (c : Dev nD) (w : Fin cfg1.W) : (dat1 (E1 m ρ) c).arrAt w cfg1.N = X1 m ρ c (Pipeline.arrRef spec1 w) :=
  (B4_arr m ρ c w).symm
theorem hrest1 (c : Dev nD) : ∀ b, b ∉ Finset.univ.image (Pipeline.arrRef spec1) → X1 m ρ c b = E1 m ρ c b :=
  fun b hb => B4_of_ne m ρ c b fun w e => hb (Finset.mem_image.mpr ⟨w, Finset.mem_univ _, e⟩)

/-! ## An argument is written by no host operation and is no window's array: it ends as launched -/

theorem B4_of_arg (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    B4 m ρ c (Proc.devRef .tc b) = m ((c : Thread nD τ).loc b) :=
  calc B4 m ρ c (Proc.devRef .tc b)
    _ = B3 m ρ c (Proc.devRef .tc b) := B4_of_ne m ρ c b hw1
    _ = B2 m ρ c (Proc.devRef .tc b) := StableHlo.after_of_writes_sub hostOps1 _ hostOps1_writes h1
    _ = B1 m ρ c (Proc.devRef .tc b) := B2_of_ne m ρ c b hw0
    _ = B0 m ρ c (Proc.devRef .tc b) := StableHlo.after_of_writes_sub hostOps0 _ hostOps0_writes h0
    _ = m ((c : Thread nD τ).loc b) := rfl

theorem B4_main_arg0 (c : Dev nD) : B4 m ρ c (Proc.devRef .tc main_arg0) = m ((c : Thread nD τ).loc main_arg0) :=
  B4_of_arg m ρ c main_arg0 (by decide) (by decide) (by decide) (by decide)
theorem B4_main_arg1 (c : Dev nD) : B4 m ρ c (Proc.devRef .tc main_arg1) = m ((c : Thread nD τ).loc main_arg1) :=
  B4_of_arg m ρ c main_arg1 (by decide) (by decide) (by decide) (by decide)
theorem B4_main_arg2 (c : Dev nD) : B4 m ρ c (Proc.devRef .tc main_arg2) = m ((c : Thread nD τ).loc main_arg2) :=
  B4_of_arg m ρ c main_arg2 (by decide) (by decide) (by decide) (by decide)
theorem B4_main_arg3 (c : Dev nD) : B4 m ρ c (Proc.devRef .tc main_arg3) = m ((c : Thread nD τ).loc main_arg3) :=
  B4_of_arg m ρ c main_arg3 (by decide) (by decide) (by decide) (by decide)
theorem B4_main_arg4 (c : Dev nD) : B4 m ρ c (Proc.devRef .tc main_arg4) = m ((c : Thread nD τ).loc main_arg4) :=
  B4_of_arg m ρ c main_arg4 (by decide) (by decide) (by decide) (by decide)
theorem B4_main_arg5 (c : Dev nD) : B4 m ρ c (Proc.devRef .tc main_arg5) = m ((c : Thread nD τ).loc main_arg5) :=
  B4_of_arg m ρ c main_arg5 (by decide) (by decide) (by decide) (by decide)
theorem B4_main_arg6 (c : Dev nD) : B4 m ρ c (Proc.devRef .tc main_arg6) = m ((c : Thread nD τ).loc main_arg6) :=
  B4_of_arg m ρ c main_arg6 (by decide) (by decide) (by decide) (by decide)

/-! ## The proof data family and the thread state -/

/-- No pipeline has a prefetched table. -/
abbrev noTables : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c
abbrev 𝒱n : Variants := Variants.none
abbrev Lv0 : GSem nD τ sig → Finset Unit := fun _ => ∅
abbrev lv0 : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B4 m ρ c) ∗ ∃ r, prngReg c r)

/-! ## The two calls as items -/

set_option backward.isDefEq.respectTransparency.types false in
/-- The projection call over the thread state: entered from every unscoped buffer at `B1`, left at `B2`. -/
def reg0 : Pipeline.RegionSeg (pcfgs (F := F)) noTables (pdats m ρ) () defs₀ 𝒱n Lv0 lv0 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ Lv0 lv0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `B3`, left at `B4`. -/
def reg1 : Pipeline.RegionSeg (pcfgs (F := F)) noTables (pdats m ρ) () defs₀ 𝒱n Lv0 lv0 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ Lv0 lv0 1 fun _ _ => rfl
  pre c := iprop(StableHlo.held (c : Thread nD τ) (Pipeline.ucRefs τ sig) (B3 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev items : List (Pipeline.Seg (pcfgs (F := F)) noTables (pdats m ρ) () defs₀ 𝒱n Lv0 lv0) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (items m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (pdats m ρ) () cellOf_inj emb₁ defs₀ 𝒱n Lv0 lv0 m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun _ => .rfl⟩)
    (hinit := by
      refine Pipeline.initEach Lv0 lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c)⟩) (run_all m ρ)

end Cert.Kernel.Hand

end
-- ==== Proof.Region0.lean ====
/-
  The projection call (the first of the program's two pipelined calls) at an arbitrary entry contents `V` of the
  TensorCore's buffers, at any float instance.  Each of its sixteen grid points multiplies a block of 512 rows of the
  flattened input by the whole 1024×3072 weight matrix, adds the bias row, and stores the three 1024-column thirds of
  the result into three output blocks.  Stated here: what each output block holds after the body as a function of the
  three input blocks, the body's triple, the pipeline's proof data, and the body obligation at every point.
-/
import proofs.«173296_j13632226198096_2_alg».proof.Proof.Gen.KernelIdeal.Launch
import proofs.«173296_j13632226198096_2_alg».proof.Proof.Gen.KernelIdeal.Skeleton
import proofs.«173296_j13632226198096_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's rectangles: every load and store takes a buffer whole. -/
abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- What the body leaves in the three output blocks: the query, key and value thirds of the affine product. -/
def out0_3 (x0 : Vec F S512x1024 .bf16) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .bf16) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .bf16) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- One whole-block store covers the block. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 1000000 in
/-- The body on whole staging memrefs: the three inputs at read contents, the three outputs at anything, runs to the
    continuation with the inputs as they were and each output at its third of the product. -/
theorem sound_kernel0 (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .bf16) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-- The proof data of the projection pipeline on core `c`: the arrays as the call finds them; after the body each
    input's buffer at its block and each output's at its third of the product of the input blocks; the invariant is
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The attention call (the second of the program's two pipelined calls) at an arbitrary entry contents `V` of the
  TensorCore's buffers, at any float instance.  Its grid is 4 sequences by 4 tiles of 512 query rows.  A point holds
  one tile of queries and the whole key and value arrays of its sequence; it treats the two halves of 256 query rows
  alike — scores against every key row, the row-wise shifted exponentials over their row sums, the weighted sum of the
  value rows — and stores the two results into the two halves of the output block.  Stated here: what the output block
  holds after the body as a function of the three input blocks, the body's triple, the pipeline's proof data, and the
  body obligation at every point.
-/
import proofs.«173296_j13632226198096_2_alg».proof.Proof.Gen.KernelIdeal.Launch
import proofs.«173296_j13632226198096_2_alg».proof.Proof.Gen.KernelIdeal.Skeleton
import proofs.«173296_j13632226198096_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or not (the key and
    value blocks are fetched once per sequence and stay in place while the query tiles sweep). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's rectangles: the key and value blocks whole; the lower and upper halves of 256 rows of a 512-row block
    (of the query block when loaded, of the output block when stored). -/
abbrev r1_kv : Rect S1x2048x1024 := Rect.unit (s := S1x2048x1024) ![0, 0, 0] S1x2048x1024.size inb_S1x2048x1024_S1x2048x1024_0_0_0
abbrev r1_lo : Rect S1x512x1024 := Rect.unit (s := S1x512x1024) ![0, 0, 0] S1x256x1024.size inb_S1x512x1024_S1x256x1024_0_0_0
abbrev r1_hi : Rect S1x512x1024 := Rect.unit (s := S1x512x1024) ![0, 256, 0] S1x256x1024.size inb_S1x512x1024_S1x256x1024_0_256_0

/-- What the body leaves in the output block: its two stores as pieces, the last first — the upper half from the upper
    half of the queries, the lower half from the lower half. -/
def out1_3 (x0 : Vec F S1x512x1024 .bf16) (x1 : Vec F S1x2048x1024 .bf16) (x2 : Vec F S1x2048x1024 .bf16) : Vec F S1x512x1024 .f32 :=
  View.canon [⟨r1_hi, k1_pay1 (k1_pay4 (View.ld x1 r1_kv) (View.ld x2 r1_kv) (View.ld x0 r1_hi))⟩,
    ⟨r1_lo, k1_pay5 (View.ld x1 r1_kv) (View.ld x2 r1_kv) (View.ld x0 r1_lo)⟩]

/-- The two half-block stores tile the block, so they cover it. -/
theorem cover1 (p0 : Vec F S1x256x1024 .f32) (p1 : Vec F S1x256x1024 .f32) (y : S1x512x1024.Idx) :
    ∃ pc ∈ ([⟨r1_hi, p0⟩, ⟨r1_lo, p1⟩] : List (View.Piece (Elt F) S1x512x1024 .f32)), y ∈ pc.1.set :=
  View.cover_of_tiled [⟨r1_hi, p0⟩, ⟨r1_lo, p1⟩] S1x256x1024.size (by rfl) y

set_option maxHeartbeats 1000000 in
/-- The body on whole staging memrefs: the three inputs at read contents, the output at anything, runs to the
    continuation with the inputs as they were and the output at the two halves' results. -/
theorem sound_kernel1 (c : Dev nD) (E : Set ℕ) (i : grid1.Coords)
    (arg2 : Memref sig .tc .vmem S1x512x1024 .bf16) (harg2 : arg2.IsWhole) (arg3 : Memref sig .tc .vmem S1x2048x1024 .bf16) (harg3 : arg3.IsWhole)
    (arg4 : Memref sig .tc .vmem S1x2048x1024 .bf16) (harg4 : arg4.IsWhole) (arg5 : Memref sig .tc .vmem S1x512x1024 .f32) (harg5 : arg5.IsWhole)
    (x0 : Vec F S1x512x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _ _)

/-- The proof data of the attention pipeline on core `c`: the arrays as the call finds them; after the body each
    input's buffer at its block and the output's at the two halves' results of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HandRun.lean ====
/-
  The whole program as five boundaries: the launch memory, the contents after the host operations that prepare the
  operands (the three weight matrices transposed, the query's scaled by 1/32, joined side by side; the biases likewise
  joined; the input flattened to rows), after the projection call, after the three reshapes back to sequences, and
  after the attention call.  Each pipelined call changes only its output arrays, which end at what its write-backs
  leave; every other buffer is as entered.  The run: from any memory with zero counters every weakly fair execution
  terminates without a fault with every unscoped buffer at the last boundary's contents — in particular each argument
  as launched and the result array at what the attention call's write-backs leave.
-/
import proofs.«173296_j13632226198096_2_alg».proof.Proof.Gen.KernelIdeal.Launch
import proofs.«173296_j13632226198096_2_alg».proof.Proof.Gen.KernelIdeal.Skeleton
import proofs.«173296_j13632226198096_2_alg».proof.Proof.Gen.KernelIdeal.Points
import proofs.«173296_j13632226198096_2_alg».proof.Proof.Gen.KernelIdeal.Regions
import proofs.«173296_j13632226198096_2_alg».proof.Proof.Region0
import proofs.«173296_j13632226198096_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev B0 : Dev nD → Valuation τ sig (Elt F) := fun c b => (s₀ m ρ).mem ((c : Dev nD), b)
/-- After the preparing host operations: what the projection call is entered from. -/
abbrev B1 : Dev nD → Valuation τ sig (Elt F) := fun c => StableHlo.after hostOps0 (B0 m ρ c)
/-- The same read at the TensorCore's references. -/
abbrev E0 : (c : Dev nD) → (b : Ref sig .tc) → Buf (Elt F) ((c : Thread nD τ).loc b) := fun c b => B1 m ρ c b
/-- After the projection call: its arrays at what the pipeline leaves, every other buffer as entered. -/
def B2 (c : Dev nD) : Valuation τ sig (Elt F) :=
  Pipeline.withArrays spec0 c (B1 m ρ c) fun w => (dat0 (E0 m ρ) c).arrAt w cfg0.N
theorem B2_arr (c : Dev nD) (w : Fin cfg0.W) :
    B2 m ρ c (Proc.devRef .tc (Pipeline.arrRef spec0 w)) = (dat0 (E0 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev X0 : (c : Dev nD) → (b : Ref sig .tc) → Buf (Elt F) ((c : Thread nD τ).loc b) := fun c b => B2 m ρ c b
theorem hF0 (c : Dev nD) (w : Fin cfg0.W) : (dat0 (E0 m ρ) c).arrAt w cfg0.N = X0 m ρ c (Pipeline.arrRef spec0 w) :=
  (B2_arr m ρ c w).symm
theorem hrest0 (c : Dev nD) : ∀ b, b ∉ Finset.univ.image (Pipeline.arrRef spec0) → X0 m ρ c b = E0 m ρ c b :=
  fun b hb => B2_of_ne m ρ c b fun w e => hb (Finset.mem_image.mpr ⟨w, Finset.mem_univ _, e⟩)

/-- After the reshapes: what the attention call is entered from. -/
abbrev B3 : Dev nD → Valuation τ sig (Elt F) := fun c => StableHlo.after hostOps1 (B2 m ρ c)
abbrev E1 : (c : Dev nD) → (b : Ref sig .tc) → Buf (Elt F) ((c : Thread nD τ).loc b) := fun c b => B3 m ρ c b
/-- After the attention call. -/
def B4 (c : Dev nD) : Valuation τ sig (Elt F) :=
  Pipeline.withArrays spec1 c (B3 m ρ c) fun w => (dat1 (E1 m ρ) c).arrAt w cfg1.N
theorem B4_arr (c : Dev nD) (w : Fin cfg1.W) :
    B4 m ρ c (Proc.devRef .tc (Pipeline.arrRef spec1 w)) = (dat1 (E1 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev X1 : (c : Dev nD) → (b : Ref sig .tc) → Buf (Elt F) ((c : Thread nD τ).loc b) := fun c b => B4 m ρ c b
theorem hF1 (c : Dev nD) (w : Fin cfg1.W) : (dat1 (E1 m ρ) c).arrAt w cfg1.N = X1 m ρ c (Pipeline.arrRef spec1 w) :=
  (B4_arr m ρ c w).symm
theorem hrest1 (c : Dev nD) : ∀ b, b ∉ Finset.univ.image (Pipeline.arrRef spec1) → X1 m ρ c b = E1 m ρ c b :=
  fun b hb => B4_of_ne m ρ c b fun w e => hb (Finset.mem_image.mpr ⟨w, Finset.mem_univ _, e⟩)

/-! ## An argument is written by no host operation and is no window's array: it ends as launched -/

theorem B4_of_arg (c : Dev nD) (b : Ref sig .tc) (h0 : b ∉ hostOps0_W) (h1 : b ∉ hostOps1_W)
    (hw0 : ∀ w, Pipeline.arrRef spec0 w ≠ b) (hw1 : ∀ w, Pipeline.arrRef spec1 w ≠ b) :
    B4 m ρ c (Proc.devRef .tc b) = m ((c : Thread nD τ).loc b) :=
  calc B4 m ρ c (Proc.devRef .tc b)
    _ = B3 m ρ c (Proc.devRef .tc b) := B4_of_ne m ρ c b hw1
    _ = B2 m ρ c (Proc.devRef .tc b) := StableHlo.after_of_writes_sub hostOps1 _ hostOps1_writes h1
    _ = B1 m ρ c (Proc.devRef .tc b) := B2_of_ne m ρ c b hw0
    _ = B0 m ρ c (Proc.devRef .tc b) := StableHlo.after_of_writes_sub hostOps0 _ hostOps0_writes h0
    _ = m ((c : Thread nD τ).loc b) := rfl

theorem B4_main_arg0 (c : Dev nD) : B4 m ρ c (Proc.devRef .tc main_arg0) = m ((c : Thread nD τ).loc main_arg0) :=
  B4_of_arg m ρ c main_arg0 (by decide) (by decide) (by decide) (by decide)
theorem B4_main_arg1 (c : Dev nD) : B4 m ρ c (Proc.devRef .tc main_arg1) = m ((c : Thread nD τ).loc main_arg1) :=
  B4_of_arg m ρ c main_arg1 (by decide) (by decide) (by decide) (by decide)
theorem B4_main_arg2 (c : Dev nD) : B4 m ρ c (Proc.devRef .tc main_arg2) = m ((c : Thread nD τ).loc main_arg2) :=
  B4_of_arg m ρ c main_arg2 (by decide) (by decide) (by decide) (by decide)
theorem B4_main_arg3 (c : Dev nD) : B4 m ρ c (Proc.devRef .tc main_arg3) = m ((c : Thread nD τ).loc main_arg3) :=
  B4_of_arg m ρ c main_arg3 (by decide) (by decide) (by decide) (by decide)
theorem B4_main_arg4 (c : Dev nD) : B4 m ρ c (Proc.devRef .tc main_arg4) = m ((c : Thread nD τ).loc main_arg4) :=
  B4_of_arg m ρ c main_arg4 (by decide) (by decide) (by decide) (by decide)
theorem B4_main_arg5 (c : Dev nD) : B4 m ρ c (Proc.devRef .tc main_arg5) = m ((c : Thread nD τ).loc main_arg5) :=
  B4_of_arg m ρ c main_arg5 (by decide) (by decide) (by decide) (by decide)
theorem B4_main_arg6 (c : Dev nD) : B4 m ρ c (Proc.devRef .tc main_arg6) = m ((c : Thread nD τ).loc main_arg6) :=
  B4_of_arg m ρ c main_arg6 (by decide) (by decide) (by decide) (by decide)

/-! ## The proof data family and the thread state -/

/-- No pipeline has a prefetched table. -/
abbrev noTables : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) noTables p) c
  | ⟨0, _⟩ => fun c => dat0 (E0 m ρ) c
  | ⟨1, _⟩ => fun c => dat1 (E1 m ρ) c
abbrev 𝒱n : Variants := Variants.none
abbrev Lv0 : GSem nD τ sig → Finset Unit := fun _ => ∅
abbrev lv0 : GSem nD τ sig → Unit → ℕ := fun _ _ => 0
/-- What rides beside the buffers through every item: the core's generator register at some state and its dues, at nothing. -/
abbrev Rest (c : Dev nD) : sProp 𝕄 := iprop((∃ r, prngReg c r) ∗ ∃ W, owes (c : Thread nD τ) (0 : CellTallies nD τ sig Unit) W)
/-- A stretch of host operations as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (B4 m ρ c) ∗ ∃ r, prngReg c r)

/-! ## The two calls as items -/

set_option backward.isDefEq.respectTransparency.types false in
/-- The projection call over the thread state: entered from every unscoped buffer at `B1`, left at `B2`. -/
def reg0 : Pipeline.RegionSeg (pcfgs (F := F)) noTables (pdats m ρ) () defs₀ 𝒱n Lv0 lv0 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ Lv0 lv0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at `B3`, left at `B4`. -/
def reg1 : Pipeline.RegionSeg (pcfgs (F := F)) noTables (pdats m ρ) () defs₀ 𝒱n Lv0 lv0 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ Lv0 lv0 1 fun _ _ => rfl
  pre c := iprop(StableHlo.held (c : Thread nD τ) (Pipeline.ucRefs τ sig) (B3 m ρ c) ∗ Rest c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (E1 m ρ c) (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev items : List (Pipeline.Seg (pcfgs (F := F)) noTables (pdats m ρ) () defs₀ 𝒱n Lv0 lv0) :=
  [ .host (hseg hostOps0 hostOps0_sub hostOps0_fresh (B0 m ρ)),
    .region (reg0 m ρ),
    .host (hseg hostOps1 hostOps1_sub hostOps1_fresh (B2 m ρ)),
    .region (reg1 m ρ) ]
theorem main_run (c : Dev nD) : main (F := F) c = Pipeline.Seg.run (items m ρ) := (main_chain c).trans (by chain_rfl)

set_option backward.isDefEq.respectTransparency.types false in
/-- THE RUN: from any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) noTables (pdats m ρ) () cellOf_inj emb₁ defs₀ 𝒱n Lv0 lv0 m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun _ => .rfl⟩)
    (hinit := by
      refine Pipeline.initEach Lv0 lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c),
     (h c _ (mem_uc main_arg5 (by decide))).trans (B4_main_arg5 m ρ c),
     (h c _ (mem_uc main_arg6 (by decide))).trans (B4_main_arg6 m ρ c)⟩) (run_all m ρ)

end Cert.KernelIdeal.Hand

end
-- ==== Proof.AttnSpec.lean ====
/-
  Single-head self-attention over a batch of 4 sequences of 2048 rows of width 1024, stated index by index on the
  extended reals, in the two arrangements the certificate compares.

  Both arrangements project the input three times (query, key, value; weights in the row-major "output × input"
  convention, so entry (e, d) of a weight multiplies input feature d into output feature e), score every query row
  against every key row of the same sequence, turn each row of scores into weights by the shifted exponential divided
  by its row sum, and average the value rows with those weights.

  They differ in where the factor 1/√1024 = 1/32 sits.  The first arrangement multiplies it into the query weights and
  the query bias before the projection; the second multiplies the finished score by it.  Moving a factor across a sum is
  distributivity, which on the extended reals holds only away from the infinities: the two agree for finite data, and
  the two scores are then the same real number, so everything after the scores is the same function of the same values.
-/
import Idealize.ShloMosaic.PureOps.Ideal

noncomputable section

namespace Cert.Attention

open Idealize.ShloMosaic

/-- The batch of input sequences: sequence, row, feature. -/
abbrev Seqs := Fin 4 → Fin 2048 → Fin 1024 → EReal
/-- A projection's weights: output feature, input feature. -/
abbrev Weights := Fin 1024 → Fin 1024 → EReal
/-- A projection's bias: output feature. -/
abbrev Bias := Fin 1024 → EReal

/-- An affine projection of row `s` of sequence `n`: output feature `e` is the row against row `e` of the weights, plus the bias. -/
def proj (x : Seqs) (W : Weights) (b : Bias) (n : Fin 4) (s : Fin 2048) (e : Fin 1024) : EReal :=
  (∑ d : Fin 1024, x n s d * W e d) + b e

/-- The same projection with a factor `c` multiplied into every weight and into the bias beforehand. -/
def projScaled (c : EReal) (x : Seqs) (W : Weights) (b : Bias) (n : Fin 4) (s : Fin 2048) (e : Fin 1024) : EReal :=
  (∑ d : Fin 1024, x n s d * (W e d * c)) + b e * c

/-- The largest entry of a row of scores, as a fold of `max` from −∞ (the f32 word of −∞, never evaluated). -/
def rowMax (f : Fin 2048 → EReal) : EReal :=
  (Finset.univ : Finset (Fin 2048)).fold max (Ideal.ofBits .f32 0xFF800000#32) f

/-- The shifted exponentials of a row of scores. -/
def expShift (f : Fin 2048 → EReal) (j : Fin 2048) : EReal := Ideal.exp (f j - rowMax f)

/-- The attention weights of a row of scores: each shifted exponential over the row's sum of them. -/
def weights (f : Fin 2048 → EReal) (j : Fin 2048) : EReal :=
  Ideal.div (expShift f j) (∑ k : Fin 2048, expShift f k)

/-- One output entry: the weighted sum of a column of values. -/
def attend (f : Fin 2048 → EReal) (v : Fin 2048 → EReal) : EReal := ∑ j : Fin 2048, weights f j * v j

/-- The factor as the first arrangement holds it: the f32 word of 2⁻⁵. -/
def scaleFolded : EReal := Ideal.ofBits .f32 0x3D000000#32

/-- The factor as the second arrangement computes it: one over the square root of 1024. -/
def scaleComputed : EReal := Ideal.div (Ideal.ofBits .f32 0x3F800000#32) (Ideal.sqrt (Ideal.ofBits .f32 0x44800000#32))

/-- The score of query row `s` against key row `j` of sequence `n`, the factor folded into the query projection. -/
def scoreFolded (x : Seqs) (Wq : Weights) (bq : Bias) (Wk : Weights) (bk : Bias) (n : Fin 4) (s j : Fin 2048) : EReal :=
  ∑ d : Fin 1024, projScaled scaleFolded x Wq bq n s d * proj x Wk bk n j d

/-- The same score, the factor applied to the finished inner product. -/
def scoreScaled (x : Seqs) (Wq : Weights) (bq : Bias) (Wk : Weights) (bk : Bias) (n : Fin 4) (s j : Fin 2048) : EReal :=
  (∑ d : Fin 1024, proj x Wq bq n s d * proj x Wk bk n j d) * scaleComputed

/-- Attention with the factor folded into the query projection (the first arrangement). -/
def attnFolded (x : Seqs) (Wq : Weights) (bq : Bias) (Wk : Weights) (bk : Bias) (Wv : Weights) (bv : Bias)
    (n : Fin 4) (s : Fin 2048) (e : Fin 1024) : EReal :=
  attend (fun j => scoreFolded x Wq bq Wk bk n s j) (fun j => proj x Wv bv n j e)

/-- Attention with the factor applied to the scores (the second arrangement). -/
def attnScaled (x : Seqs) (Wq : Weights) (bq : Bias) (Wk : Weights) (bk : Bias) (Wv : Weights) (bv : Bias)
    (n : Fin 4) (s : Fin 2048) (e : Fin 1024) : EReal :=
  attend (fun j => scoreScaled x Wq bq Wk bk n s j) (fun j => proj x Wv bv n j e)

end Cert.Attention

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.Payloads.lean ====
/-
  The two kernel bodies' values read entry by entry on the extended reals.

  The first body multiplies a block of 512 input rows by the 1024×3072 matrix that holds the three projections'
  weights side by side, adds the one row of 3072 biases to every row, and cuts the result into three blocks of 1024
  columns: entry (r, e) of the block cut at column offset o is the row r against column o + e, plus bias o + e.

  The second body, for a block of 256 query rows, scores each against all 2048 key rows (the inner product over the
  1024 features), subtracts the row's largest score, exponentiates, divides by the row's sum, and averages the 2048
  value rows with these weights: entry (r, e) is the specification's `attend` of row r's scores and column e of the
  values.
-/
import proofs.«173296_j13632226198096_2_alg».proof.Proof.Gen.KernelIdeal.Skeleton
import proofs.«173296_j13632226198096_2_alg».proof.Proof.AttnSpec
import proofs.«173296_j13632226198096_2_alg».proof.Proof.LibMatmulNN
import proofs.«173296_j13632226198096_2_alg».proof.Proof.LibMatmulNT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The projection body -/

/-- The projected block before it is cut: entry (r, c) is row r of the input block against column c of the weights,
    plus bias c. -/
theorem pay1_apply (x0 : FVec Ideal S512x1024 .bf16) (w : FVec Ideal S1024x3072 .bf16) (b : FVec Ideal S1x3072 .f32)
    (r : Fin 512) (c : Fin 3072) :
    k0_pay1 (F := Ideal) x0 w b (ix2 r c)
      = (∑ d : Fin 1024, x0 (ix2 r d) * w (ix2 d c)) + b (ix2 (0 : Fin 1) c) := by
  unfold k0_pay1
  rw [shapeCast_self, shapeCast_self, shapeCast_self]
  refine (truncf_apply (ψ := .bf16) _ bitsLt_bf16_f32 _).trans ?_
  refine (addf_apply _ _ _).trans ?_
  refine congrArg₂ (· + ·) ?_ ?_
  · exact Cert.LibMatmulNN.matmul_zero_apply' dot_S512x1024_S1024x3072_S512x3072_1_0_0_1_n_n rfl rfl rfl rfl rfl rfl none x0 w r c
  · exact broadcastTo_1b_ab_apply b broadcasts_S1x3072_S512x3072 r c

/-- The first cut (columns 0 to 1023). -/
theorem pay2_apply (x0 : FVec Ideal S512x1024 .bf16) (w : FVec Ideal S1024x3072 .bf16) (b : FVec Ideal S1x3072 .f32)
    (r : Fin 512) (e : Fin 1024) :
    k0_pay2 (F := Ideal) x0 w b (ix2 r e)
      = (∑ d : Fin 1024, x0 (ix2 r d) * w (ix2 d (⟨e.val, by omega⟩ : Fin 3072)))
        + b (ix2 (0 : Fin 1) (⟨e.val, by omega⟩ : Fin 3072)) := by
  unfold k0_pay2
  refine (slice2_axis1_apply 0 (k0_pay1 (F := Ideal) x0 w b) slices_S512x3072_o0_0_S512x1024 r e
    (⟨e.val, by omega⟩ : Fin 3072) (Nat.zero_add _).symm).trans ?_
  exact pay1_apply x0 w b r _

/-- The second cut (columns 1024 to 2047). -/
theorem pay3_apply (x0 : FVec Ideal S512x1024 .bf16) (w : FVec Ideal S1024x3072 .bf16) (b : FVec Ideal S1x3072 .f32)
    (r : Fin 512) (e : Fin 1024) :
    k0_pay3 (F := Ideal) x0 w b (ix2 r e)
      = (∑ d : Fin 1024, x0 (ix2 r d) * w (ix2 d (⟨1024 + e.val, by omega⟩ : Fin 3072)))
        + b (ix2 (0 : Fin 1) (⟨1024 + e.val, by omega⟩ : Fin 3072)) := by
  unfold k0_pay3
  refine (slice2_axis1_apply 1024 (k0_pay1 (F := Ideal) x0 w b) slices_S512x3072_o0_1024_S512x1024 r e
    (⟨1024 + e.val, by omega⟩ : Fin 3072) rfl).trans ?_
  exact pay1_apply x0 w b r _

/-- The third cut (columns 2048 to 3071). -/
theorem pay4_apply (x0 : FVec Ideal S512x1024 .bf16) (w : FVec Ideal S1024x3072 .bf16) (b : FVec Ideal S1x3072 .f32)
    (r : Fin 512) (e : Fin 1024) :
    k0_pay4 (F := Ideal) x0 w b (ix2 r e)
      = (∑ d : Fin 1024, x0 (ix2 r d) * w (ix2 d (⟨2048 + e.val, by omega⟩ : Fin 3072)))
        + b (ix2 (0 : Fin 1) (⟨2048 + e.val, by omega⟩ : Fin 3072)) := by
  unfold k0_pay4
  refine (slice2_axis1_apply 2048 (k0_pay1 (F := Ideal) x0 w b) slices_S512x3072_o0_2048_S512x1024 r e
    (⟨2048 + e.val, by omega⟩ : Fin 3072) rfl).trans ?_
  exact pay1_apply x0 w b r _

end Cert.KernelIdeal.Payload

end
-- ==== Proof.Value0.lean ====
/-
  The projection call's three output arrays after all sixteen write-backs, each as one function of the arrays the call
  is entered with, entry by entry on the extended reals.

  Point t of the grid multiplies rows 512·t … 512·t + 511 of the flattened input by the joined 1024×3072 weight matrix,
  adds the joined bias row, and writes the three 1024-column thirds of the result into rows 512·t … 512·t + 511 of the
  three outputs.  The sixteen row blocks tile the 8192 rows, so entry (r, e) of the output cut at column offset o is row
  r of the input against column o + e of the weights, plus bias o + e.
-/
import proofs.«173296_j13632226198096_2_alg».proof.Proof.Region0
import proofs.«173296_j13632226198096_2_alg».proof.Proof.Payloads
import Idealize.ShloMosaic.Lib.Pipeline.Value
import Idealize.ShloMosaic.Lib.ValueIdx
import Idealize.ShloMosaic.Lib.Tactic

set_option maxRecDepth 16384

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of the input against column col of the weights, plus bias col. -/
def affine (X : S8192x1024.Idx → EReal) (W : S1024x3072.Idx → EReal) (B : S1x3072.Idx → EReal) (r : Fin 8192) (col : Fin 3072) : EReal :=
  (∑ d : Fin 1024, X (ix2 r d) * W (ix2 d col)) + B (ix2 (0 : Fin 1) col)

/-- The columns of the three cuts. -/
def colQ (e : Fin 1024) : Fin 3072 := ⟨e.val, by omega⟩
def colK (e : Fin 1024) : Fin 3072 := ⟨1024 + e.val, by omega⟩
def colV (e : Fin 1024) : Fin 3072 := ⟨2048 + e.val, by omega⟩

/-- An output array as a function of the whole input arrays: entry (r, e) is the affine row at the cut's column for e. -/
def G (col : Fin 1024 → Fin 3072) (X : S8192x1024.Idx → EReal) (W : S1024x3072.Idx → EReal) (B : S1x3072.Idx → EReal) : S8192x1024.Idx → EReal :=
  fun i => affine X W B ⟨(i 0).val, (i 0).isLt⟩ (col ⟨(i 1).val, (i 1).isLt⟩)

/-- The printed index maps over the grid: the input and the three outputs are at row block t, column block 0; the
    weights and the bias are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input window's block at point t is rows 512·t … 512·t + 511 of the input array. -/
theorem iblk_x (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .bf16) x = (V c main_v12 : S8192x1024.Idx → EReal) k := by
  obtain ⟨e0, e1, -⟩ := idx_facts t
  unfold iblk0
  rw [View.read_apply]
  show V c main_v12 _ = V c main_v12 _
  refine congrArg (V c main_v12) ?_
  funext a
  apply Fin.ext
  match a with
  | ⟨0, _⟩ => show win0_0.index t 0 * 512 + 1 * (x 0).val = (k 0).val; rw [e0, hk0]; omega
  | ⟨1, _⟩ => show win0_0.index t 1 * 1024 + 1 * (x 1).val = (k 1).val; rw [e1, hk1]; omega

/-- The weight window's block is the whole weight array, at every point. -/
theorem iblk_w (c : Dev nD) (t : Fin cfg0.N) (x : S1024x3072.Idx) :
    (iblk0 V c 1 t : Vec Ideal S1024x3072 .bf16) x = (V c main_v6 : S1024x3072.Idx → EReal) x := by
  obtain ⟨-, -, e0, e1, -⟩ := idx_facts t
  unfold iblk0
  rw [View.read_apply]
  show V c main_v6 _ = V c main_v6 _
  refine congrArg (V c main_v6) ?_
  funext a
  apply Fin.ext
  match a with
  | ⟨0, _⟩ => show win0_1.index t 0 * 1024 + 1 * (x 0).val = (x 0).val; rw [e0]; omega
  | ⟨1, _⟩ => show win0_1.index t 1 * 3072 + 1 * (x 1).val = (x 1).val; rw [e1]; omega

/-- The bias window's block is the whole bias row, at every point. -/
theorem iblk_b (c : Dev nD) (t : Fin cfg0.N) (x : S1x3072.Idx) :
    (iblk0 V c 2 t : Vec Ideal S1x3072 .f32) x = (V c main_v10 : S1x3072.Idx → EReal) x := by
  obtain ⟨-, -, -, -, e0, e1, -⟩ := idx_facts t
  unfold iblk0
  rw [View.read_apply]
  show V c main_v10 _ = V c main_v10 _
  refine congrArg (V c main_v10) ?_
  funext a
  apply Fin.ext
  match a with
  | ⟨0, _⟩ => show win0_2.index t 0 * 1 + 1 * (x 0).val = (x 0).val; rw [e0]; omega
  | ⟨1, _⟩ => show win0_2.index t 1 * 3072 + 1 * (x 1).val = (x 1).val; rw [e1]; omega

/-- The three arrays the call reads, at their literal shapes on the extended reals. -/
abbrev arrX (c : Dev nD) : S8192x1024.Idx → EReal := V c main_v12
abbrev arrW (c : Dev nD) : S1024x3072.Idx → EReal := V c main_v6
abbrev arrB (c : Dev nD) : S1x3072.Idx → EReal := V c main_v10

/-! ## The Q output (window 3) -/

/-- What the body leaves at entry j of this output block, from blocks that are rows 512·tv … of X and all of W and B. -/
theorem payQ_at (x0 : FVec Ideal S512x1024 .bf16) (w : FVec Ideal S1024x3072 .bf16) (b : FVec Ideal S1x3072 .f32)
    (X : S8192x1024.Idx → EReal) (W : S1024x3072.Idx → EReal) (B : S1x3072.Idx → EReal) (tv : Nat) (htv : tv < 16)
    (hx : ∀ (r : Fin 512) (d : Fin 1024), x0 (ix2 r d) = X (ix2 (⟨512 * tv + r.val, by omega⟩ : Fin 8192) d))
    (hw : ∀ y, w y = W y) (hb : ∀ y, b y = B y) (r : Fin 512) (e : Fin 1024) :
    k0_pay2 (F := Ideal) x0 w b (ix2 r e) = affine X W B (⟨512 * tv + r.val, by omega⟩ : Fin 8192) (colQ e) := by
  refine (Cert.KernelIdeal.Payload.pay2_apply x0 w b r e).trans ?_
  unfold affine colQ
  refine congrArg₂ (· + ·) (Finset.sum_congr rfl fun d _ => ?_) (hb _)
  rw [hx, hw]

/-- What point t writes back is block t of the closed form. -/
theorem flushedQ (c : Dev nD) (t : Fin cfg0.N) :
    (dat0 V c).flushed 3 t = ((cfg0.win 3).blk t).view.read (Elt Ideal) (G colQ (V c main_v12) (V c main_v6) (V c main_v10)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨-, -, -, -, -, -, e0, e1, -⟩ := idx_facts t
  have ht : t.val < 16 := t.isLt
  funext j
  rw [View.read_apply]
  have hj0 : (j 0).val < 512 := (j 0).isLt
  have hj1 : (j 1).val < 1024 := (j 1).isLt
  show k0_pay2 (F := Ideal) (iblk0 V c 0 t) (iblk0 V c 1 t) (iblk0 V c 2 t) (ix2 (⟨(j 0).val, hj0⟩ : Fin 512) (⟨(j 1).val, hj1⟩ : Fin 1024)) = G colQ (V c main_v12) (V c main_v6) (V c main_v10) (((cfg0.win 3).blk t).view.emb j)
  refine (payQ_at (iblk0 V c 0 t) (iblk0 V c 1 t) (iblk0 V c 2 t) (V c main_v12) (V c main_v6) (V c main_v10) t.val ht
    (fun r d => iblk_x V c t (ix2 r d) _ rfl rfl) (fun y => iblk_w V c t y) (fun y => iblk_b V c t y) _ _).trans ?_
  unfold G
  refine congrArg₂ (affine (V c main_v12) (V c main_v6) (V c main_v10)) (Fin.ext ?_) (congrArg colQ (Fin.ext ?_))
  · show 512 * t.val + (j 0).val = win0_3.index t 0 * 512 + 1 * (j 0).val
    rw [e0]; omega
  · show (j 1).val = win0_3.index t 1 * 1024 + 1 * (j 1).val
    rw [e1]; omega

/-- An index of the array is in point t's block iff each coordinate is in the block's range on its axis. -/
theorem mem_blkQ (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v13_0).slice (win0_3.rect t)).set ↔ _
  rw [View.set_slice_whole, Rect.mem_set_unit]
  exact Iff.rfl

/-- Row r lies in the block of point r / 512: the sixteen row blocks tile the array. -/
theorem coverQ (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : (i 0).val / 512 < cfg0.N := by show _ < grid0.N; rw [N_0]; omega
  refine ⟨⟨(i 0).val / 512, hN⟩, flush0_3 _, ?_⟩
  rw [mem_blkQ]
  obtain ⟨-, -, -, -, -, -, e0, e1, -⟩ := idx_facts ⟨(i 0).val / 512, hN⟩
  intro a
  match a with
  | ⟨0, _⟩ => show win0_3.index ⟨(i 0).val / 512, hN⟩ (0 : Fin 2) * 512 ≤ (i 0).val ∧ (i 0).val < win0_3.index ⟨(i 0).val / 512, hN⟩ (0 : Fin 2) * 512 + 512
              rw [e0]; show (i 0).val / 512 * 512 ≤ (i 0).val ∧ (i 0).val < (i 0).val / 512 * 512 + 512; omega
  | ⟨1, _⟩ => show win0_3.index ⟨(i 0).val / 512, hN⟩ (1 : Fin 2) * 1024 ≤ (i 1).val ∧ (i 1).val < win0_3.index ⟨(i 0).val / 512, hN⟩ (1 : Fin 2) * 1024 + 1024
              rw [e1]; omega

/-- The array after the run is the closed form everywhere. -/
theorem arrQ (c : Dev nD) : (dat0 V c).arrAt 3 cfg0.N = G colQ (V c main_v12) (V c main_v6) (V c main_v10) :=
  (dat0 V c).arrAt_eq_of_cover 3 (G colQ (V c main_v12) (V c main_v6) (V c main_v10)) (fun t _ => flushedQ V c t) coverQ

/-- Entry (r, e) of the q output after the call. -/
theorem final_q (c : Dev nD) (r : Fin 8192) (e : Fin 1024) :
    ((dat0 V c).arrAt 3 cfg0.N : S8192x1024.Idx → EReal) (ix2 r e)
      = (∑ d : Fin 1024, arrX V c (ix2 r d) * arrW V c (ix2 d (⟨e.val, by omega⟩ : Fin 3072)))
        + arrB V c (ix2 (0 : Fin 1) (⟨e.val, by omega⟩ : Fin 3072)) := by
  rw [arrQ]
  rfl

/-! ## The K output (window 4) -/

/-- What the body leaves at entry j of this output block, from blocks that are rows 512·tv … of X and all of W and B. -/
theorem payK_at (x0 : FVec Ideal S512x1024 .bf16) (w : FVec Ideal S1024x3072 .bf16) (b : FVec Ideal S1x3072 .f32)
    (X : S8192x1024.Idx → EReal) (W : S1024x3072.Idx → EReal) (B : S1x3072.Idx → EReal) (tv : Nat) (htv : tv < 16)
    (hx : ∀ (r : Fin 512) (d : Fin 1024), x0 (ix2 r d) = X (ix2 (⟨512 * tv + r.val, by omega⟩ : Fin 8192) d))
    (hw : ∀ y, w y = W y) (hb : ∀ y, b y = B y) (r : Fin 512) (e : Fin 1024) :
    k0_pay3 (F := Ideal) x0 w b (ix2 r e) = affine X W B (⟨512 * tv + r.val, by omega⟩ : Fin 8192) (colK e) := by
  refine (Cert.KernelIdeal.Payload.pay3_apply x0 w b r e).trans ?_
  unfold affine colK
  refine congrArg₂ (· + ·) (Finset.sum_congr rfl fun d _ => ?_) (hb _)
  rw [hx, hw]

/-- What point t writes back is block t of the closed form. -/
theorem flushedK (c : Dev nD) (t : Fin cfg0.N) :
    (dat0 V c).flushed 4 t = ((cfg0.win 4).blk t).view.read (Elt Ideal) (G colK (V c main_v12) (V c main_v6) (V c main_v10)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x3072) hz, View.ld_unit_zero (S := S1x3072) hz]
  obtain ⟨-, -, -, -, -, -, -, -, e0, e1, -⟩ := idx_facts t
  have ht : t.val < 16 := t.isLt
  funext j
  rw [View.read_apply]
  have hj0 : (j 0).val < 512 := (j 0).isLt
  have hj1 : (j 1).val < 1024 := (j 1).isLt
  show k0_pay3 (F := Ideal) (iblk0 V c 0 t) (iblk0 V c 1 t) (iblk0 V c 2 t) (ix2 (⟨(j 0).val, hj0⟩ : Fin 512) (⟨(j 1).val, hj1⟩ : Fin 1024)) = G colK (V c main_v12) (V c main_v6) (V c main_v10) (((cfg0.win 4).blk t).view.emb j)
  refine (payK_at (iblk0 V c 0 t) (iblk0 V c 1 t) (iblk0 V c 2 t) (V c main_v12) (V c main_v6) (V c main_v10) t.val ht
    (fun r d => iblk_x V c t (ix2 r d) _ rfl rfl) (fun y => iblk_w V c t y) (fun y => iblk_b V c t y) _ _).trans ?_
  unfold G
  refine congrArg₂ (affine (V c main_v12) (V c main_v6) (V c main_v10)) (Fin.ext ?_) (congrArg colK (Fin.ext ?_))
  · show 512 * t.val + (j 0).val = win0_4.index t 0 * 512 + 1 * (j 0).val
    rw [e0]; omega
  · show (j 1).val = win0_4.index t 1 * 1024 + 1 * (j 1).val
    rw [e1]; omega

/-- An index of the array is in point t's block iff each coordinate is in the block's range on its axis. -/
theorem mem_blkK (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v13_1).slice (win0_4.rect t)).set ↔ _
  rw [View.set_slice_whole, Rect.mem_set_unit]
  exact Iff.rfl

/-- Row r lies in the block of point r / 512: the sixteen row blocks tile the array. -/
theorem coverK (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : (i 0).val / 512 < cfg0.N := by show _ < grid0.N; rw [N_0]; omega
  refine ⟨⟨(i 0).val / 512, hN⟩, flush0_4 _, ?_⟩
  rw [mem_blkK]
  obtain ⟨-, -, -, -, -, -, -, -, e0, e1, -⟩ := idx_facts ⟨(i 0).val / 512, hN⟩
  intro a
  match a with
  | ⟨0, _⟩ => show win0_4.index ⟨(i 0).val / 512, hN⟩ (0 : Fin 2) * 512 ≤ (i 0).val ∧ (i 0).val < win0_4.index ⟨(i 0).val / 512, hN⟩ (0 : Fin 2) * 512 + 512
              rw [e0]; show (i 0).val / 512 * 512 ≤ (i 0).val ∧ (i 0).val < (i 0).val / 512 * 512 + 512; omega
  | ⟨1, _⟩ => show win0_4.index ⟨(i 0).val / 512, hN⟩ (1 : Fin 2) * 1024 ≤ (i 1).val ∧ (i 1).val < win0_4.index ⟨(i 0).val / 512, hN⟩ (1 : Fin 2) * 1024 + 1024
              rw [e1]; omega

/-- The array after the run is the closed form everywhere. -/
theorem arrK (c : Dev nD) : (dat0 V c).arrAt 4 cfg0.N = G colK (V c main_v12) (V c main_v6) (V c main_v10) :=
  (dat0 V c).arrAt_eq_of_cover 4 (G colK (V c main_v12) (V c main_v6) (V c main_v10)) (fun t _ => flushedK V c t) coverK

/-- Entry (r, e) of the k output after the call. -/
theorem final_k (c : Dev nD) (r : Fin 8192) (e : Fin 1024) :
    ((dat0 V c).arrAt 4 cfg0.N : S8192x1024.Idx → EReal) (ix2 r e)
      = (∑ d : Fin 1024, arrX V c (ix2 r d) * arrW V c (ix2 d (⟨1024 + e.val, by omega⟩ : Fin 3072)))
        + arrB V c (ix2 (0 : Fin 1) (⟨1024 + e.val, by omega⟩ : Fin 3072)) := by
  rw [arrK]
  rfl

/-! ## The V output (window 5) -/

/-- What the body leaves at entry j of this output block, from blocks that are rows 512·tv … of X and all of W and B. -/
theorem payV_at (x0 : FVec Ideal S512x1024 .bf16) (w : FVec Ideal S1024x3072 .bf16) (b : FVec Ideal S1x3072 .f32)
    (X : S8192x1024.Idx → EReal) (W : S1024x3072.Idx → EReal) (B : S1x3072.Idx → EReal) (tv : Nat) (htv : tv < 16)
    (hx : ∀ (r : Fin 512) (d : Fin 1024), x0 (ix2 r d) = X (ix2 (⟨512 * tv + r.val, by omega⟩ : Fin 8192) d))
    (hw : ∀ y, w y = W y) (hb : ∀ y, b y = B y) (r : Fin 512) (e : Fin 1024) :
    k0_pay4 (F := Ideal) x0 w b (ix2 r e) = affine X W B (⟨512 * tv + r.val, by omega⟩ : Fin 8192) (colV e) := by
  refine (Cert.KernelIdeal.Payload.pay4_apply x0 w b r e).trans ?_
  unfold affine colV
  refine congrArg₂ (· + ·) (Finset.sum_congr rfl fun d _ => ?_) (hb _)
  rw [hx, hw]

/-- What point t writes back is block t of the closed form. -/
theorem flushedV (c : Dev nD) (t : Fin cfg0.N) :
    (dat0 V c).flushed 5 t = ((cfg0.win 5).blk t).view.read (Elt Ideal) (G colV (V c main_v12) (V c main_v6) (V c main_v10)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x3072) hz, View.ld_unit_zero (S := S1x3072) hz]
  obtain ⟨-, -, -, -, -, -, -, -, -, -, e0, e1⟩ := idx_facts t
  have ht : t.val < 16 := t.isLt
  funext j
  rw [View.read_apply]
  have hj0 : (j 0).val < 512 := (j 0).isLt
  have hj1 : (j 1).val < 1024 := (j 1).isLt
  show k0_pay4 (F := Ideal) (iblk0 V c 0 t) (iblk0 V c 1 t) (iblk0 V c 2 t) (ix2 (⟨(j 0).val, hj0⟩ : Fin 512) (⟨(j 1).val, hj1⟩ : Fin 1024)) = G colV (V c main_v12) (V c main_v6) (V c main_v10) (((cfg0.win 5).blk t).view.emb j)
  refine (payV_at (iblk0 V c 0 t) (iblk0 V c 1 t) (iblk0 V c 2 t) (V c main_v12) (V c main_v6) (V c main_v10) t.val ht
    (fun r d => iblk_x V c t (ix2 r d) _ rfl rfl) (fun y => iblk_w V c t y) (fun y => iblk_b V c t y) _ _).trans ?_
  unfold G
  refine congrArg₂ (affine (V c main_v12) (V c main_v6) (V c main_v10)) (Fin.ext ?_) (congrArg colV (Fin.ext ?_))
  · show 512 * t.val + (j 0).val = win0_5.index t 0 * 512 + 1 * (j 0).val
    rw [e0]; omega
  · show (j 1).val = win0_5.index t 1 * 1024 + 1 * (j 1).val
    rw [e1]; omega

/-- An index of the array is in point t's block iff each coordinate is in the block's range on its axis. -/
theorem mem_blkV (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v13_2).slice (win0_5.rect t)).set ↔ _
  rw [View.set_slice_whole, Rect.mem_set_unit]
  exact Iff.rfl

/-- Row r lies in the block of point r / 512: the sixteen row blocks tile the array. -/
theorem coverV (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 512 < cfg0.N := by show _ < grid0.N; rw [N_0]; omega
  refine ⟨⟨(i 0).val / 512, hN⟩, flush0_5 _, ?_⟩
  rw [mem_blkV]
  obtain ⟨-, -, -, -, -, -, -, -, -, -, e0, e1⟩ := idx_facts ⟨(i 0).val / 512, hN⟩
  intro a
  match a with
  | ⟨0, _⟩ => show win0_5.index ⟨(i 0).val / 512, hN⟩ (0 : Fin 2) * 512 ≤ (i 0).val ∧ (i 0).val < win0_5.index ⟨(i 0).val / 512, hN⟩ (0 : Fin 2) * 512 + 512
              rw [e0]; show (i 0).val / 512 * 512 ≤ (i 0).val ∧ (i 0).val < (i 0).val / 512 * 512 + 512; omega
  | ⟨1, _⟩ => show win0_5.index ⟨(i 0).val / 512, hN⟩ (1 : Fin 2) * 1024 ≤ (i 1).val ∧ (i 1).val < win0_5.index ⟨(i 0).val / 512, hN⟩ (1 : Fin 2) * 1024 + 1024
              rw [e1]; omega

/-- The array after the run is the closed form everywhere. -/
theorem arrV (c : Dev nD) : (dat0 V c).arrAt 5 cfg0.N = G colV (V c main_v12) (V c main_v6) (V c main_v10) :=
  (dat0 V c).arrAt_eq_of_cover 5 (G colV (V c main_v12) (V c main_v6) (V c main_v10)) (fun t _ => flushedV V c t) coverV

/-- Entry (r, e) of the v output after the call. -/
theorem final_v (c : Dev nD) (r : Fin 8192) (e : Fin 1024) :
    ((dat0 V c).arrAt 5 cfg0.N : S8192x1024.Idx → EReal) (ix2 r e)
      = (∑ d : Fin 1024, arrX V c (ix2 r d) * arrW V c (ix2 d (⟨2048 + e.val, by omega⟩ : Fin 3072)))
        + arrB V c (ix2 (0 : Fin 1) (⟨2048 + e.val, by omega⟩ : Fin 3072)) := by
  rw [arrV]
  rfl

end Cert.KernelIdeal.Value0

end
-- ==== Proof.Payloads1.lean ====
/-
  The attention body's value read entry by entry on the extended reals.

  For a block of 256 query rows the body scores each row against all 2048 key rows (the inner product over the 1024
  features), subtracts the row's largest score, exponentiates, divides by the row's sum, and averages the 2048 value
  rows with these weights: entry (r, e) is the specification's `attend` of row r's scores and column e of the values.
-/
import proofs.«173296_j13632226198096_2_alg».proof.Proof.Gen.KernelIdeal.Skeleton
import proofs.«173296_j13632226198096_2_alg».proof.Proof.AttnSpec
import proofs.«173296_j13632226198096_2_alg».proof.Proof.LibMatmulNN
import proofs.«173296_j13632226198096_2_alg».proof.Proof.LibMatmulNT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload1

open Cert.KernelIdeal Cert.KernelIdeal.Gen Idealize.ShloMosaic Idealize.ShloMosaic.ValueIdx

/-! ## The attention body -/

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

/-- Row `r` of a 256×2048 block with column `k` put back is the entry `(r, k)`. -/
theorem lift_row (r : Fin 256) (k : Fin 2048) :
    reduces_S256x2048_S256.lift (ix1 r) k = ix2 r k :=
  funext fun ax => Fin.ext (by match ax with | ⟨0, _⟩ => rfl | ⟨1, _⟩ => rfl)

/-- The maximum over a row of a 256×2048 block, from −∞: the specification's `rowMax` of that row. -/
theorem rowMax_apply (s : FVec Ideal S256x2048 .f32) (hφ : FKind.Formats .f32)
    (hacc : (0xFF800000#32 : BitVec 32) = FKind.maximumf.neutral .f32 hφ) (r : Fin 256) :
    multiReduction (F := Ideal) .maximumf [1] S256 s 0xFF800000#32 reduces_S256x2048_S256 hφ hacc (ix1 r)
      = Cert.Attention.rowMax (fun k => s (ix2 r k)) := by
  refine (Ideal.multiReduction_maximumf_single s _ reduces_S256x2048_S256 hφ hacc (ix1 r)).trans ?_
  unfold Cert.Attention.rowMax
  exact congrArg (fun g : Fin 2048 → EReal => (Finset.univ : Finset (Fin 2048)).fold max (Ideal.ofBits .f32 0xFF800000#32) g)
    (funext fun k => congrArg s (lift_row r k))

/-- The sum over a row of a 256×2048 block. -/
theorem rowSum_apply (p : FVec Ideal S256x2048 .f32) (hφ : FKind.Formats .f32)
    (hacc : (0x00000000#32 : BitVec 32) = FKind.add.neutral .f32 hφ) (r : Fin 256) :
    multiReduction (F := Ideal) .add [1] S256 p 0x00000000#32 reduces_S256x2048_S256 hφ hacc (ix1 r)
      = ∑ k : Fin 2048, p (ix2 r k) := by
  refine (Ideal.multiReduction_add_single p _ reduces_S256x2048_S256 hφ hacc (ix1 r)).trans ?_
  exact Finset.sum_congr rfl fun k _ => congrArg p (lift_row r k)

/-- The weights block of a block of scores: each row shifted by its maximum, exponentiated, divided by its sum. -/
def probs (s : FVec Ideal S256x2048 .f32) : FVec Ideal S256x2048 .bf16 :=
  have m : FVec Ideal S256 .f32 := multiReduction .maximumf [1] S256 s 0xFF800000#32 reduces_S256x2048_S256 (.inl rfl) rfl
  have m1 : FVec Ideal S256x1 .f32 := shapeCast S256x1 m shapeCasts_S256_S256x1
  have mb : FVec Ideal S256x2048 .f32 := broadcastTo S256x2048 m1 broadcasts_S256x1_S256x2048
  have p : FVec Ideal S256x2048 .f32 := exp (subf s mb)
  have t : FVec Ideal S256 .f32 := multiReduction .add [1] S256 p 0x00000000#32 reduces_S256x2048_S256 (.inl rfl) rfl
  have t1 : FVec Ideal S256x1 .f32 := shapeCast S256x1 t shapeCasts_S256_S256x1
  have tb : FVec Ideal S256x2048 .f32 := broadcastTo S256x2048 t1 broadcasts_S256x1_S256x2048
  truncf .bf16 (divf p tb) bitsLt_bf16_f32

/-- The shifted exponential of a score block at `(r, j)`. -/
theorem expShift_apply (s : FVec Ideal S256x2048 .f32) (r : Fin 256) (j : Fin 2048) :
    exp (subf s (broadcastTo S256x2048 (shapeCast S256x1
        (multiReduction (F := Ideal) .maximumf [1] S256 s 0xFF800000#32 reduces_S256x2048_S256 (.inl rfl) rfl)
        shapeCasts_S256_S256x1) broadcasts_S256x1_S256x2048)) (ix2 r j)
      = Cert.Attention.expShift (fun k => s (ix2 r k)) j := by
  unfold Cert.Attention.expShift
  show Ideal.exp (s (ix2 r j) - broadcastTo S256x2048 _ broadcasts_S256x1_S256x2048 (ix2 r j)) = _
  refine congrArg (fun m => Ideal.exp (s (ix2 r j) - m)) ?_
  refine (broadcastTo_a1_ab_apply _ broadcasts_S256x1_S256x2048 r j).trans ?_
  refine (shapeCast_a_a1_apply _ shapeCasts_S256_S256x1 r 0).trans ?_
  exact rowMax_apply s (.inl rfl) rfl r

/-- The weights block at `(r, j)`: the specification's weight `j` of row `r`'s scores. -/
theorem probs_apply (s : FVec Ideal S256x2048 .f32) (r : Fin 256) (j : Fin 2048) :
    probs s (ix2 r j) = Cert.Attention.weights (fun k => s (ix2 r k)) j := by
  unfold probs Cert.Attention.weights
  refine (truncf_apply (ψ := .bf16) _ bitsLt_bf16_f32 _).trans ?_
  refine (divf_apply _ _ _).trans ?_
  refine congrArg₂ Ideal.div (expShift_apply s r j) ?_
  refine (broadcastTo_a1_ab_apply _ broadcasts_S256x1_S256x2048 r j).trans ?_
  refine (shapeCast_a_a1_apply _ shapeCasts_S256_S256x1 r 0).trans ?_
  refine (rowSum_apply _ (.inl rfl) rfl r).trans ?_
  exact Finset.sum_congr rfl fun k _ => expShift_apply s r k

/-- The block of scores of 256 query rows against the 2048 key rows. -/
def scoreBlock (kb : FVec Ideal S1x2048x1024 .bf16) (q : FVec Ideal S1x256x1024 .bf16) : FVec Ideal S256x2048 .f32 :=
  matmul dot_S256x1024_S2048x1024_S256x2048_1_1_0_0_n_n none (shapeCast S256x1024 q shapeCasts_S1x256x1024_S256x1024)
    (k1_pay2 (F := Ideal) kb) (constant (F := Ideal) S256x2048 .f32 0x00000000#32)

/-- A score: the inner product of query row `r` and key row `j` over the features. -/
theorem scoreBlock_apply (kb : FVec Ideal S1x2048x1024 .bf16) (q : FVec Ideal S1x256x1024 .bf16)
    (r : Fin 256) (j : Fin 2048) :
    scoreBlock kb q (ix2 r j) = ∑ d : Fin 1024, q (ix3 (0 : Fin 1) r d) * kb (ix3 (0 : Fin 1) j d) := by
  unfold scoreBlock k1_pay2
  refine (Cert.Lib.MatmulNT.matmul_zero_nt_apply dot_S256x1024_S2048x1024_S256x2048_1_1_0_0_n_n_wf none
    (shapeCast S256x1024 q shapeCasts_S1x256x1024_S256x1024)
    (shapeCast S2048x1024 kb shapeCasts_S1x2048x1024_S2048x1024) r j).trans ?_
  exact Finset.sum_congr rfl fun d _ => congrArg₂ (· * ·)
    (shapeCast_1ab_ab_apply q shapeCasts_S1x256x1024_S256x1024 r d)
    (shapeCast_1ab_ab_apply kb shapeCasts_S1x2048x1024_S2048x1024 j d)

/-- The attention of a block of 256 query rows: the weights block times the value rows. -/
def attnBlock (kb vb : FVec Ideal S1x2048x1024 .bf16) (q : FVec Ideal S1x256x1024 .bf16) : FVec Ideal S256x1024 .f32 :=
  matmul dot_S256x2048_S2048x1024_S256x1024_1_0_0_1_n_n none (probs (scoreBlock kb q)) (k1_pay3 (F := Ideal) vb)
    (constant (F := Ideal) S256x1024 .f32 0x00000000#32)

/-- Its entry `(r, e)`: the weighted sum of column `e` of the value rows, with row `r`'s attention weights. -/
theorem attnBlock_apply (kb vb : FVec Ideal S1x2048x1024 .bf16) (q : FVec Ideal S1x256x1024 .bf16)
    (r : Fin 256) (e : Fin 1024) :
    attnBlock kb vb q (ix2 r e)
      = Cert.Attention.attend (fun j => ∑ d : Fin 1024, q (ix3 (0 : Fin 1) r d) * kb (ix3 (0 : Fin 1) j d))
          (fun j => vb (ix3 (0 : Fin 1) j e)) := by
  unfold attnBlock Cert.Attention.attend
  refine (Cert.LibMatmulNN.matmul_zero_apply' dot_S256x2048_S2048x1024_S256x1024_1_0_0_1_n_n rfl rfl rfl rfl rfl rfl none
    (probs (scoreBlock kb q)) (k1_pay3 (F := Ideal) vb) r e).trans ?_
  refine Finset.sum_congr rfl fun j _ => congrArg₂ (· * ·) ?_ ?_
  · refine (probs_apply (scoreBlock kb q) r j).trans ?_
    exact congrArg (fun g : Fin 2048 → EReal => Cert.Attention.weights g j) (funext fun k => scoreBlock_apply kb q r k)
  · unfold k1_pay3
    exact shapeCast_1ab_ab_apply vb shapeCasts_S1x2048x1024_S2048x1024 j e

/-- The second half's product is the attention block of its query rows. -/
theorem pay4_eq (kb vb : FVec Ideal S1x2048x1024 .bf16) (q : FVec Ideal S1x256x1024 .bf16) :
    k1_pay4 (F := Ideal) kb vb q = attnBlock kb vb q := rfl

/-- The first half's stored value is the attention block of its query rows under a leading unit axis. -/
theorem pay5_eq (kb vb : FVec Ideal S1x2048x1024 .bf16) (q : FVec Ideal S1x256x1024 .bf16) :
    k1_pay5 (F := Ideal) kb vb q = shapeCast S1x256x1024 (attnBlock kb vb q) shapeCasts_S256x1024_S1x256x1024 := rfl

/-- The first half's stored value at `(0, r, e)`. -/
theorem pay5_apply (kb vb : FVec Ideal S1x2048x1024 .bf16) (q : FVec Ideal S1x256x1024 .bf16)
    (r : Fin 256) (e : Fin 1024) :
    k1_pay5 (F := Ideal) kb vb q (ix3 (0 : Fin 1) r e)
      = Cert.Attention.attend (fun j => ∑ d : Fin 1024, q (ix3 (0 : Fin 1) r d) * kb (ix3 (0 : Fin 1) j d))
          (fun j => vb (ix3 (0 : Fin 1) j e)) := by
  rw [pay5_eq]
  exact (shapeCast_ab_1ab_apply (attnBlock kb vb q) shapeCasts_S256x1024_S1x256x1024 0 r e).trans
    (attnBlock_apply kb vb q r e)

/-- The second half's stored value at `(0, r, e)`. -/
theorem pay1_pay4_apply (kb vb : FVec Ideal S1x2048x1024 .bf16) (q : FVec Ideal S1x256x1024 .bf16)
    (r : Fin 256) (e : Fin 1024) :
    k1_pay1 (F := Ideal) (k1_pay4 kb vb q) (ix3 (0 : Fin 1) r e)
      = Cert.Attention.attend (fun j => ∑ d : Fin 1024, q (ix3 (0 : Fin 1) r d) * kb (ix3 (0 : Fin 1) j d))
          (fun j => vb (ix3 (0 : Fin 1) j e)) := by
  rw [pay4_eq]
  unfold k1_pay1
  exact (shapeCast_ab_1ab_apply (attnBlock kb vb q) shapeCasts_S256x1024_S1x256x1024 0 r e).trans
    (attnBlock_apply kb vb q r e)

end Cert.KernelIdeal.Payload1

end
-- ==== Proof.Value1.lean ====
/-
  The output array of the attention call as one function of the three arrays it reads, index by index, on the
  extended reals.

  The call sweeps a grid of 4 sequences by 4 tiles of 512 query rows.  At a point (n, q) it holds tile q of the query
  rows of sequence n and all key and value rows of sequence n, and stores the output block in two halves of 256 rows,
  each half the attention of its 256 query rows against all key rows, averaging the value rows.  So row r of the block
  is the attention of query row r of the tile, whichever half it falls in; the tile's row r is row 512 · q + r of the
  sequence; and the blocks of the 16 points tile the array, row s of sequence n lying in the block of (n, s / 512).
  Hence entry (n, s, e) of the array after the call is the attention of query row s of sequence n against the key rows
  of sequence n, averaging column e of the value rows of sequence n.

  In order: the two-piece block read at a row of either half; the block as a function of any three input blocks; the
  target function of three arrays; the index maps of the four windows decided over the 16 points; each input block
  read off its array; what a point writes back; the cover; the array after the last point.
-/
import proofs.«173296_j13632226198096_2_alg».proof.Proof.Region1
import proofs.«173296_j13632226198096_2_alg».proof.Proof.AttnSpec
import proofs.«173296_j13632226198096_2_alg».proof.Proof.Payloads1
import Idealize.ShloMosaic.Lib.Pipeline.Value
import Idealize.ShloMosaic.Lib.ValueIdx

set_option maxRecDepth 16384

noncomputable section

namespace Cert.KernelIdeal.Value1

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The zero offsets, as a constant function. -/
theorem zeros3 : (![0, 0, 0] : Fin 3 → Nat) = fun _ => 0 := funext fun a => by fin_cases a <;> rfl

section Pieces
variable {F : FTy → Type} [FloatOps F]

/-- A row below 256 is not in the upper half of the block. -/
theorem not_mem_hi (r : Fin 512) (h : r.val < 256) (e : Fin 1024) : (ix3 (0 : Fin 1) r e : S1x512x1024.Idx) ∉ r1_hi.set := by
  rw [Rect.mem_set_unit]
  intro hall
  have h1 := (hall 1).1
  have h2 : ((ix3 (0 : Fin 1) r e : S1x512x1024.Idx) 1).val = r.val := rfl
  have h3 : (![0, 256, 0] : Fin 3 → Nat) 1 = 256 := rfl
  omega

/-- A row below 256 is that row of the lower half. -/
theorem emb_lo (r : Fin 512) (h : r.val < 256) (e : Fin 1024) : (ix3 (0 : Fin 1) r e : S1x512x1024.Idx) = r1_lo.emb (ix3 (0 : Fin 1) (⟨r.val, h⟩ : Fin 256) e) := by
  funext a; apply Fin.ext
  match a with
  | ⟨0, _⟩ => rfl
  | ⟨1, _⟩ => show r.val = 0 + 1 * r.val; omega
  | ⟨2, _⟩ => show e.val = 0 + 1 * e.val; omega

/-- A row from 256 on is row r − 256 of the upper half. -/
theorem emb_hi (r : Fin 512) (h : ¬ r.val < 256) (e : Fin 1024) :
    (ix3 (0 : Fin 1) r e : S1x512x1024.Idx) = r1_hi.emb (ix3 (0 : Fin 1) (⟨r.val - 256, by have := r.isLt; omega⟩ : Fin 256) e) := by
  funext a; apply Fin.ext
  match a with
  | ⟨0, _⟩ => rfl
  | ⟨1, _⟩ => show r.val = 256 + 1 * (r.val - 256); omega
  | ⟨2, _⟩ => show e.val = 0 + 1 * e.val; omega

/-- Of two pieces, the upper half written last and the lower half first, a row below 256 reads the lower piece. -/
theorem canon_lo (p0 p1 : Vec F S1x256x1024 .f32) (r : Fin 512) (h : r.val < 256) (e : Fin 1024) :
    View.canon ([⟨r1_hi, p0⟩, ⟨r1_lo, p1⟩] : List (View.Piece (Elt F) S1x512x1024 .f32)) (ix3 (0 : Fin 1) r e)
      = p1 (ix3 (0 : Fin 1) (⟨r.val, h⟩ : Fin 256) e) := by
  refine (View.canon_cons_of_not_mem (Val := Elt F) (⟨r1_hi, p0⟩ : View.Piece (Elt F) S1x512x1024 .f32) [⟨r1_lo, p1⟩] (y := ix3 (0 : Fin 1) r e) (not_mem_hi r h e)).trans ?_
  refine (congrArg _ (emb_lo r h e)).trans ?_
  exact View.canon_cons_emb r1_lo p1 [] _

/-- A row from 256 on reads the upper piece. -/
theorem canon_hi (p0 p1 : Vec F S1x256x1024 .f32) (r : Fin 512) (h : ¬ r.val < 256) (e : Fin 1024) :
    View.canon ([⟨r1_hi, p0⟩, ⟨r1_lo, p1⟩] : List (View.Piece (Elt F) S1x512x1024 .f32)) (ix3 (0 : Fin 1) r e)
      = p0 (ix3 (0 : Fin 1) (⟨r.val - 256, by have := r.isLt; omega⟩ : Fin 256) e) := by
  refine (congrArg _ (emb_hi r h e)).trans ?_
  exact View.canon_cons_emb r1_hi p0 _ _

end Pieces

/-- The output block at row r and feature e, over any three input blocks: the attention of query row r of the
    first against the rows of the second, averaging column e of the third. -/
theorem out1_3_apply (x0 : Vec Ideal S1x512x1024 .bf16) (x1 x2 : Vec Ideal S1x2048x1024 .bf16) (r : Fin 512) (e : Fin 1024) :
    out1_3 (F := Ideal) x0 x1 x2 (ix3 (0 : Fin 1) r e)
      = Cert.Attention.attend (fun j => ∑ d : Fin 1024, x0 (ix3 (0 : Fin 1) r d) * x1 (ix3 (0 : Fin 1) j d)) (fun j => x2 (ix3 (0 : Fin 1) j e)) := by
  unfold out1_3
  simp only [View.ld_unit_zero (S := S1x2048x1024) zeros3]
  by_cases h : r.val < 256
  · refine (canon_lo (F := Ideal) _ _ r h e).trans ?_
    refine (Payload1.pay5_apply x1 x2 (View.ld x0 r1_lo) ⟨r.val, h⟩ e).trans ?_
    have hq : ∀ d : Fin 1024, View.ld x0 r1_lo (ix3 (0 : Fin 1) (⟨r.val, h⟩ : Fin 256) d) = x0 (ix3 (0 : Fin 1) r d) := fun d =>
      (congrArg x0 (emb_lo r h d)).symm
    simp only [hq]
  · refine (canon_hi (F := Ideal) _ _ r h e).trans ?_
    refine (Payload1.pay1_pay4_apply x1 x2 (View.ld x0 r1_hi) ⟨r.val - 256, by have := r.isLt; omega⟩ e).trans ?_
    have hq : ∀ d : Fin 1024, View.ld x0 r1_hi (ix3 (0 : Fin 1) (⟨r.val - 256, by have := r.isLt; omega⟩ : Fin 256) d) = x0 (ix3 (0 : Fin 1) r d) := fun d =>
      (congrArg x0 (emb_hi r h d)).symm
    simp only [hq]

/-- The attention output as one function of the three arrays the call reads: entry (n, s, e) is the attention of
    query row s of sequence n against the key rows of that sequence, averaging column e of its value rows. -/
def attnOf (Q K W : S4x2048x1024.Idx → EReal) : S4x2048x1024.Idx → EReal := fun i =>
  Cert.Attention.attend (fun j : Fin 2048 => ∑ d : Fin 1024, Q (ix3 (i 0 : Fin 4) (i 1 : Fin 2048) d) * K (ix3 (i 0 : Fin 4) j d))
    (fun j : Fin 2048 => W (ix3 (i 0 : Fin 4) j (i 2 : Fin 1024)))

/-- The index maps over the grid: the query block moves with the output block; the key and value blocks follow its
    sequence coordinate only; the output's block indices stay in range. -/
theorem idx_facts : ∀ t : Fin cfg1.N,
    win1_0.index t (0 : Fin 3) = win1_3.index t (0 : Fin 3) ∧ win1_0.index t (1 : Fin 3) = win1_3.index t (1 : Fin 3) ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 3 ∧ win1_3.index t (2 : Fin 3) = 0 :=
  (by decide +kernel : ∀ t : Fin grid1.N, _)

/-- Every (sequence, tile) pair is some point's output block. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-- Every point writes its output block back. -/
theorem flush3 : ∀ t : Fin cfg1.N, (cfg1.win 3).flush t = true :=
  (by decide +kernel : ∀ t : Fin grid1.N, _)

/-- An index of the array is in point t's output block iff each coordinate is in the block's range on its axis. -/
theorem mem_blk (t : Fin cfg1.N) (i : S4x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v17).slice (win1_3.rect t)).set ↔ _
  rw [View.set_slice_whole, Rect.mem_set_unit]
  exact Iff.rfl

/-- The output blocks cover the array: row s of sequence n lies in the block of (n, s / 512). -/
theorem cover (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The block equation over variables: if the three blocks are the rows the windows cut out of three arrays
    — the query tile qi of sequence n, the whole key and value rows of sequence n — then the output block at
    row r, feature e is the target function at row qi · 512 + r of sequence n. -/
theorem block_eq_lit (x0 : Vec Ideal S1x512x1024 .bf16) (x1 x2 : Vec Ideal S1x2048x1024 .bf16) (Q K W : S4x2048x1024.Idx → EReal)
    (n : Fin 4) (qi : Nat) (hqi : qi ≤ 3)
    (h0 : ∀ (r : Fin 512) (d : Fin 1024), x0 (ix3 (0 : Fin 1) r d) = Q (ix3 n (⟨qi * 512 + r.val, by have := r.isLt; omega⟩ : Fin 2048) d))
    (h1 : ∀ (j : Fin 2048) (d : Fin 1024), x1 (ix3 (0 : Fin 1) j d) = K (ix3 n j d))
    (h2 : ∀ (j : Fin 2048) (d : Fin 1024), x2 (ix3 (0 : Fin 1) j d) = W (ix3 n j d))
    (r : Fin 512) (e : Fin 1024) :
    out1_3 (F := Ideal) x0 x1 x2 (ix3 (0 : Fin 1) r e)
      = attnOf Q K W (ix3 n (⟨qi * 512 + r.val, by have := r.isLt; omega⟩ : Fin 2048) e) := by
  refine (out1_3_apply x0 x1 x2 r e).trans ?_
  simp only [h0, h1, h2]
  rfl

/-- The same at a block index y and the array index i it lands on, given by their coordinates. -/
theorem block_eq (x0 : Vec Ideal S1x512x1024 .bf16) (x1 x2 : Vec Ideal S1x2048x1024 .bf16) (Q K W : S4x2048x1024.Idx → EReal)
    (n : Fin 4) (qi : Nat) (hqi : qi ≤ 3)
    (h0 : ∀ (r : Fin 512) (d : Fin 1024), x0 (ix3 (0 : Fin 1) r d) = Q (ix3 n (⟨qi * 512 + r.val, by have := r.isLt; omega⟩ : Fin 2048) d))
    (h1 : ∀ (j : Fin 2048) (d : Fin 1024), x1 (ix3 (0 : Fin 1) j d) = K (ix3 n j d))
    (h2 : ∀ (j : Fin 2048) (d : Fin 1024), x2 (ix3 (0 : Fin 1) j d) = W (ix3 n j d))
    (y : S1x512x1024.Idx) (i : S4x2048x1024.Idx)
    (hi0 : (i 0).val = n.val) (hi1 : (i 1).val = qi * 512 + (y 1).val) (hi2 : (i 2).val = (y 2).val) :
    out1_3 (F := Ideal) x0 x1 x2 y = attnOf Q K W i := by
  have hy0 : (y 0).val < 1 := (y 0).isLt
  have hy1 : (y 1).val < 512 := (y 1).isLt
  have hy : y = ix3 (0 : Fin 1) (⟨(y 1).val, hy1⟩ : Fin 512) (⟨(y 2).val, (y 2).isLt⟩ : Fin 1024) := by
    funext a; apply Fin.ext
    match a with
    | ⟨0, _⟩ => show (y 0).val = 0; omega
    | ⟨1, _⟩ => rfl
    | ⟨2, _⟩ => rfl
  have hi : i = ix3 n (⟨qi * 512 + (y 1).val, by omega⟩ : Fin 2048) (⟨(y 2).val, (y 2).isLt⟩ : Fin 1024) := by
    funext a; apply Fin.ext
    match a with
    | ⟨0, _⟩ => exact hi0
    | ⟨1, _⟩ => exact hi1
    | ⟨2, _⟩ => exact hi2
  refine (congrArg (out1_3 (F := Ideal) x0 x1 x2) hy).trans ?_
  refine (block_eq_lit x0 x1 x2 Q K W n qi hqi h0 h1 h2 ⟨(y 1).val, hy1⟩ ⟨(y 2).val, (y 2).isLt⟩).trans ?_
  exact (congrArg (attnOf Q K W) hi).symm

section Array

variable (V : (c : Dev nD) → (b : Ref sig .tc) → Buf (Elt Ideal) ((c : Thread nD τ).loc b))

/-- The query block at point t is tile (index 1) of sequence (index 0) of the query array. -/
theorem iblk1_0_apply (c : Dev nD) (t : Fin cfg1.N) (x : S1x512x1024.Idx) (k : S4x2048x1024.Idx)
    (hk0 : (k 0).val = win1_3.index t (0 : Fin 3)) (hk1 : (k 1).val = win1_3.index t (1 : Fin 3) * 512 + (x 1).val)
    (hk2 : (k 2).val = (x 2).val) :
    (iblk1 V c 0 t : Vec Ideal S1x512x1024 .bf16) x = (V c main_v14 : S4x2048x1024.Idx → EReal) k := by
  obtain ⟨e0, e1, e2, -⟩ := idx_facts t
  have hx0 : (x 0).val < 1 := (x 0).isLt
  unfold iblk1
  rw [View.read_apply]
  show V c main_v14 _ = V c main_v14 _
  congr 1
  funext a
  apply Fin.ext
  match a with
  | ⟨0, _⟩ => show win1_0.index t (0 : Fin 3) * 1 + 1 * (x 0).val = (k 0).val; omega
  | ⟨1, _⟩ => show win1_0.index t (1 : Fin 3) * 512 + 1 * (x 1).val = (k 1).val; omega
  | ⟨2, _⟩ => show win1_0.index t (2 : Fin 3) * 1024 + 1 * (x 2).val = (k 2).val; omega

/-- The key block at point t is all rows of sequence (index 0) of the key array. -/
theorem iblk1_1_apply (c : Dev nD) (t : Fin cfg1.N) (x : S1x2048x1024.Idx) (k : S4x2048x1024.Idx)
    (hk0 : (k 0).val = win1_3.index t (0 : Fin 3)) (hk1 : (k 1).val = (x 1).val) (hk2 : (k 2).val = (x 2).val) :
    (iblk1 V c 1 t : Vec Ideal S1x2048x1024 .bf16) x = (V c main_v15 : S4x2048x1024.Idx → EReal) k := by
  obtain ⟨-, -, -, e0, e1, e2, -⟩ := idx_facts t
  have hx0 : (x 0).val < 1 := (x 0).isLt
  unfold iblk1
  rw [View.read_apply]
  show V c main_v15 _ = V c main_v15 _
  congr 1
  funext a
  apply Fin.ext
  match a with
  | ⟨0, _⟩ => show win1_1.index t (0 : Fin 3) * 1 + 1 * (x 0).val = (k 0).val; omega
  | ⟨1, _⟩ => show win1_1.index t (1 : Fin 3) * 2048 + 1 * (x 1).val = (k 1).val; omega
  | ⟨2, _⟩ => show win1_1.index t (2 : Fin 3) * 1024 + 1 * (x 2).val = (k 2).val; omega

/-- The value block at point t is all rows of sequence (index 0) of the value array. -/
theorem iblk1_2_apply (c : Dev nD) (t : Fin cfg1.N) (x : S1x2048x1024.Idx) (k : S4x2048x1024.Idx)
    (hk0 : (k 0).val = win1_3.index t (0 : Fin 3)) (hk1 : (k 1).val = (x 1).val) (hk2 : (k 2).val = (x 2).val) :
    (iblk1 V c 2 t : Vec Ideal S1x2048x1024 .bf16) x = (V c main_v16 : S4x2048x1024.Idx → EReal) k := by
  obtain ⟨-, -, -, -, -, -, e0, e1, e2, -⟩ := idx_facts t
  have hx0 : (x 0).val < 1 := (x 0).isLt
  unfold iblk1
  rw [View.read_apply]
  show V c main_v16 _ = V c main_v16 _
  congr 1
  funext a
  apply Fin.ext
  match a with
  | ⟨0, _⟩ => show win1_2.index t (0 : Fin 3) * 1 + 1 * (x 0).val = (k 0).val; omega
  | ⟨1, _⟩ => show win1_2.index t (1 : Fin 3) * 2048 + 1 * (x 1).val = (k 1).val; omega
  | ⟨2, _⟩ => show win1_2.index t (2 : Fin 3) * 1024 + 1 * (x 2).val = (k 2).val; omega

/-- What point t writes back is block t of the target function of the three arrays as the call finds them. -/
theorem flushed_eq (c : Dev nD) (t : Fin cfg1.N) :
    (dat1 V c).flushed 3 t
      = ((cfg1.win 3).blk t).view.read (Elt Ideal)
          (attnOf (V c main_v14 : S4x2048x1024.Idx → EReal) (V c main_v15 : S4x2048x1024.Idx → EReal) (V c main_v16 : S4x2048x1024.Idx → EReal)) := by
  show (cfg1.win 3).cut (grid1.coords t) ((dat1 V c).after 3 t) = _
  rw [after1_3]
  obtain ⟨-, -, -, -, -, -, -, -, -, b0, b1, b2⟩ := idx_facts t
  funext j
  have hj0 : (j 0).val < 1 := (j 0).isLt
  refine block_eq (iblk1 V c 0 t) (iblk1 V c 1 t) (iblk1 V c 2 t) _ _ _ (⟨win1_3.index t (0 : Fin 3), by omega⟩ : Fin 4)
    (win1_3.index t (1 : Fin 3)) b1
    (fun r d => iblk1_0_apply V c t _ _ rfl rfl rfl) (fun j' d => iblk1_1_apply V c t _ _ rfl rfl rfl)
    (fun j' d => iblk1_2_apply V c t _ _ rfl rfl rfl) j (((cfg1.win 3).blk t).view.emb j) ?_ ?_ ?_
  · show win1_3.index t (0 : Fin 3) * 1 + 1 * (j 0).val = win1_3.index t (0 : Fin 3); omega
  · show win1_3.index t (1 : Fin 3) * 512 + 1 * (j 1).val = win1_3.index t (1 : Fin 3) * 512 + (j 1).val; omega
  · show win1_3.index t (2 : Fin 3) * 1024 + 1 * (j 2).val = (j 2).val; omega

/-- The output array after the call: the target function of the three input arrays. -/
theorem final_arr (c : Dev nD) :
    (dat1 V c).arrAt 3 cfg1.N
      = attnOf (V c main_v14 : S4x2048x1024.Idx → EReal) (V c main_v15 : S4x2048x1024.Idx → EReal) (V c main_v16 : S4x2048x1024.Idx → EReal) :=
  (dat1 V c).arrAt_eq_of_cover 3 _ (fun t _ => flushed_eq V c t) cover

/-- Entry (n, s, e) of the target function: the attention of query row s of sequence n of Q against the rows of
    sequence n of K, averaging column e of the rows of sequence n of W. -/
def attnAt (Q K W : S4x2048x1024.Idx → EReal) (n : Fin 4) (s : Fin 2048) (e : Fin 1024) : EReal :=
  Cert.Attention.attend (fun j => ∑ d : Fin 1024, Q (ix3 n s d) * K (ix3 n j d)) (fun j => W (ix3 n j e))

/-- The target function at an index given by its coordinates. -/
theorem attnOf_apply (Q K W : S4x2048x1024.Idx → EReal) (n : Fin 4) (s : Fin 2048) (e : Fin 1024) :
    attnOf Q K W (ix3 n s e) = attnAt Q K W n s e := rfl

/-- Entry (n, s, e) of the output array after the call. -/
theorem final_o (c : Dev nD) (n : Fin 4) (s : Fin 2048) (e : Fin 1024) :
    ((dat1 V c).arrAt 3 cfg1.N : S4x2048x1024.Idx → EReal) (ix3 n s e)
      = attnAt (V c main_v14 : S4x2048x1024.Idx → EReal) (V c main_v15 : S4x2048x1024.Idx → EReal) (V c main_v16 : S4x2048x1024.Idx → EReal) n s e := by
  rw [final_arr]
  rfl

/-- The same with the three arrays named: whatever functions Q, K, W the query, key and value arrays are as the call
    finds them, entry (n, s, e) of the output array after the call is their attention. -/
theorem final_o_of (c : Dev nD) (Q K W : S4x2048x1024.Idx → EReal)
    (hQ : (V c main_v14 : S4x2048x1024.Idx → EReal) = Q) (hK : (V c main_v15 : S4x2048x1024.Idx → EReal) = K)
    (hW : (V c main_v16 : S4x2048x1024.Idx → EReal) = W) (n : Fin 4) (s : Fin 2048) (e : Fin 1024) :
    ((dat1 V c).arrAt 3 cfg1.N : S4x2048x1024.Idx → EReal) (ix3 n s e)
      = Cert.Attention.attend (fun j => ∑ d : Fin 1024, Q (ix3 n s d) * K (ix3 n j d)) (fun j => W (ix3 n j e)) := by
  subst hQ hK hW
  exact final_o V c n s e

end Array

end Cert.KernelIdeal.Value1

end
-- ==== Proof.HostStretch.lean ====
import proofs.«173296_j13632226198096_2_alg».proof.Proof.Gen.KernelIdeal.Launch
import proofs.«173296_j13632226198096_2_alg».proof.Proof.AttnSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.ValueIdx

/-! ## An operation of three operands -/

section Three
variable {τ' : Topo} {sig' : RefSig} {Val : EltTy → Type} {x a b y : Ref sig' .tc}

/-- A three-operand operation leaves, at its result, its function of the three operands' contents, each read at its
    own reference. -/
theorem nary3_result
    (f : ((k : Fin 3) → ((![x, a, b] : Fin 3 → Ref sig' .tc) k).ty.Contents Val) → y.ty.Contents Val) (hxs hy)
    (V : Valuation τ' sig' Val) :
    (StableHlo.nary (τ := τ') ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

end Three

/-- The contents of one buffer after a line of operations, as the operations' functions of the starting contents:
    each operation's result at its own buffer is its function's value, at any other buffer what was there. -/
macro "host_results" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## Reshapes between rows of sequences and sequences of rows -/

/-- An [8192, 1024] array cast to [4, 2048, 1024] reads, at (n, s, d), the operand at row n·2048 + s, column d. -/
theorem cast_rows_apply (x : S8192x1024.Idx → EReal) (h : S8192x1024.ShapeCasts S4x2048x1024)
    (n : Fin 4) (s : Fin 2048) (d : Fin 1024) :
    shapeCast S4x2048x1024 x h (ix3 n s d) = x (ix2 (⟨n.val * 2048 + s.val, by omega⟩ : Fin 8192) d) :=
  shapeCast_apply x h _ _ (by
    rw [Shape.rowMajor_val_three, Shape.rowMajor_val_two]
    show (n.val * 2048 + s.val) * 1024 + d.val = (n.val * 2048 + s.val) * 1024 + d.val
    rfl)

/-- A [4, 2048, 1024] array cast to [8192, 1024] reads, at row n·2048 + s and column d, the operand at (n, s, d). -/
theorem cast_seqs_apply (x : S4x2048x1024.Idx → EReal) (h : S4x2048x1024.ShapeCasts S8192x1024)
    (n : Fin 4) (s : Fin 2048) (d : Fin 1024) :
    shapeCast S8192x1024 x h (ix2 (⟨n.val * 2048 + s.val, by omega⟩ : Fin 8192) d) = x (ix3 n s d) :=
  shapeCast_apply x h _ _ (by
    rw [Shape.rowMajor_val_three, Shape.rowMajor_val_two]
    show (n.val * 2048 + s.val) * 1024 + d.val = (n.val * 2048 + s.val) * 1024 + d.val
    rfl)

/-! ## Between the two calls -/

/-- The queries handed to the second call: entry (n, s, d) is row n·2048 + s, column d of the first call's first result. -/
theorem q3d_apply (W : Valuation τ sig (Elt Ideal)) (n : Fin 4) (s : Fin 2048) (d : Fin 1024) :
    (StableHlo.after (hostOps1 (F := Ideal)) W (Proc.devRef .tc main_v14) : S4x2048x1024.Idx → EReal) (ix3 n s d)
      = (W (Proc.devRef .tc main_v13_0) : S8192x1024.Idx → EReal) (ix2 (⟨n.val * 2048 + s.val, by omega⟩ : Fin 8192) d) := by
  have e : (StableHlo.after (hostOps1 (F := Ideal)) W (Proc.devRef .tc main_v14) : S4x2048x1024.Idx → EReal)
      = shapeCast S4x2048x1024 (W (Proc.devRef .tc main_v13_0) : S8192x1024.Idx → EReal) Facts₀.shapeCasts_S8192x1024_S4x2048x1024 := by
    after_results; rfl
  rw [e]
  exact cast_rows_apply _ _ n s d

/-- The keys handed to the second call: entry (n, s, d) is row n·2048 + s, column d of the first call's second result. -/
theorem k3d_apply (W : Valuation τ sig (Elt Ideal)) (n : Fin 4) (s : Fin 2048) (d : Fin 1024) :
    (StableHlo.after (hostOps1 (F := Ideal)) W (Proc.devRef .tc main_v15) : S4x2048x1024.Idx → EReal) (ix3 n s d)
      = (W (Proc.devRef .tc main_v13_1) : S8192x1024.Idx → EReal) (ix2 (⟨n.val * 2048 + s.val, by omega⟩ : Fin 8192) d) := by
  have e : (StableHlo.after (hostOps1 (F := Ideal)) W (Proc.devRef .tc main_v15) : S4x2048x1024.Idx → EReal)
      = shapeCast S4x2048x1024 (W (Proc.devRef .tc main_v13_1) : S8192x1024.Idx → EReal) Facts₀.shapeCasts_S8192x1024_S4x2048x1024 := by
    after_results; rfl
  rw [e]
  exact cast_rows_apply _ _ n s d

/-- The values handed to the second call: entry (n, s, d) is row n·2048 + s, column d of the first call's third result. -/
theorem v3d_apply (W : Valuation τ sig (Elt Ideal)) (n : Fin 4) (s : Fin 2048) (d : Fin 1024) :
    (StableHlo.after (hostOps1 (F := Ideal)) W (Proc.devRef .tc main_v16) : S4x2048x1024.Idx → EReal) (ix3 n s d)
      = (W (Proc.devRef .tc main_v13_2) : S8192x1024.Idx → EReal) (ix2 (⟨n.val * 2048 + s.val, by omega⟩ : Fin 8192) d) := by
  have e : (StableHlo.after (hostOps1 (F := Ideal)) W (Proc.devRef .tc main_v16) : S4x2048x1024.Idx → EReal)
      = shapeCast S4x2048x1024 (W (Proc.devRef .tc main_v13_2) : S8192x1024.Idx → EReal) Facts₀.shapeCasts_S8192x1024_S4x2048x1024 := by
    after_results; rfl
  rw [e]
  exact cast_rows_apply _ _ n s d

/-! ## Before the first call -/

/-- The rows the first call reads: row n·2048 + s, column d is entry (n, s, d) of the input sequences. -/
theorem x2d_apply (W : Valuation τ sig (Elt Ideal)) (n : Fin 4) (s : Fin 2048) (d : Fin 1024) :
    (StableHlo.after (hostOps0 (F := Ideal)) W (Proc.devRef .tc main_v12) : S8192x1024.Idx → EReal)
        (ix2 (⟨n.val * 2048 + s.val, by omega⟩ : Fin 8192) d)
      = (W (Proc.devRef .tc main_arg0) : S4x2048x1024.Idx → EReal) (ix3 n s d) := by
  have e : (StableHlo.after (hostOps0 (F := Ideal)) W (Proc.devRef .tc main_v12) : S8192x1024.Idx → EReal)
      = shapeCast S8192x1024 (W (Proc.devRef .tc main_arg0) : S4x2048x1024.Idx → EReal) Facts₀.shapeCasts_S4x2048x1024_S8192x1024 := by
    host_results; rfl
  rw [e]
  exact cast_seqs_apply _ _ n s d

/-! ## Three blocks side by side -/

/-- Three [1024, 1024] blocks laid side by side along the columns: column e of the result is column e of the first. -/
theorem cat_cols_fst (x0 x1 x2 : S1024x1024.Idx → EReal)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d (⟨e.val, by omega⟩ : Fin 3072))
      = x0 (ix2 d e) := by
  refine concatenate_apply_piece (t := S1024x3072) (1 : Fin 2) [⟨S1024x1024, x0⟩, ⟨S1024x1024, x1⟩, ⟨S1024x1024, x2⟩] h
    (ix2 d (⟨e.val, by omega⟩ : Fin 3072)) 0 (by show (0 : Nat) < 3; omega) S1024x1024 x0 rfl rfl 0 rfl (ix2 d e) ?_ ?_
  · intro b
    match b with
    | ⟨0, _⟩ => exact fun _ => rfl
    | ⟨1, _⟩ => exact fun hb => absurd rfl hb
  · show 0 + e.val = e.val
    omega

/-- Column 1024 + e of the three blocks side by side is column e of the second. -/
theorem cat_cols_snd (x0 x1 x2 : S1024x1024.Idx → EReal)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d (⟨1024 + e.val, by omega⟩ : Fin 3072))
      = x1 (ix2 d e) := by
  refine concatenate_apply_piece (t := S1024x3072) (1 : Fin 2) [⟨S1024x1024, x0⟩, ⟨S1024x1024, x1⟩, ⟨S1024x1024, x2⟩] h
    (ix2 d (⟨1024 + e.val, by omega⟩ : Fin 3072)) 1 (by show (1 : Nat) < 3; omega) S1024x1024 x1 rfl rfl 1024 rfl (ix2 d e) ?_ ?_
  · intro b
    match b with
    | ⟨0, _⟩ => exact fun _ => rfl
    | ⟨1, _⟩ => exact fun hb => absurd rfl hb
  · show 1024 + e.val = 1024 + e.val
    omega

/-- Column 2048 + e of the three blocks side by side is column e of the third. -/
theorem cat_cols_thd (x0 x1 x2 : S1024x1024.Idx → EReal)
    (h : Shape.Concatenates [S1024x1024, S1024x1024, S1024x1024] S1024x3072 1) (d e : Fin 1024) :
    concatenate S1024x3072 1 [⟨S1024x1024, x0⟩, ⟨S1024x1024, x1⟩, ⟨S1024x1024, x2⟩] h (ix2 d (⟨2048 + e.val, by omega⟩ : Fin 3072))
      = x2 (ix2 d e) := by
  refine concatenate_apply_piece (t := S1024x3072) (1 : Fin 2) [⟨S1024x1024, x0⟩, ⟨S1024x1024, x1⟩, ⟨S1024x1024, x2⟩] h
    (ix2 d (⟨2048 + e.val, by omega⟩ : Fin 3072)) 2 (by show (2 : Nat) < 3; omega) S1024x1024 x2 rfl rfl 2048 rfl (ix2 d e) ?_ ?_
  · intro b
    match b with
    | ⟨0, _⟩ => exact fun _ => rfl
    | ⟨1, _⟩ => exact fun hb => absurd rfl hb
  · show 2048 + e.val = 2048 + e.val
    omega

/-! ## Three rows end to end -/

/-- Three rows of 1024 laid end to end: entry e of the result is entry e of the first. -/
theorem cat_row_fst (x0 x1 x2 : S1024.Idx → EReal)
    (h : Shape.Concatenates [S1024, S1024, S1024] S3072 0) (e : Fin 1024) :
    concatenate S3072 0 [⟨S1024, x0⟩, ⟨S1024, x1⟩, ⟨S1024, x2⟩] h (ix1 (⟨e.val, by omega⟩ : Fin 3072))
      = x0 (ix1 e) := by
  refine concatenate_apply_piece (t := S3072) (0 : Fin 1) [⟨S1024, x0⟩, ⟨S1024, x1⟩, ⟨S1024, x2⟩] h
    (ix1 (⟨e.val, by omega⟩ : Fin 3072)) 0 (by show (0 : Nat) < 3; omega) S1024 x0 rfl rfl 0 rfl (ix1 e) ?_ ?_
  · intro b
    match b with
    | ⟨0, _⟩ => exact fun hb => absurd rfl hb
  · show 0 + e.val = e.val
    omega

/-- Entry 1024 + e of the three rows end to end is entry e of the second. -/
theorem cat_row_snd (x0 x1 x2 : S1024.Idx → EReal)
    (h : Shape.Concatenates [S1024, S1024, S1024] S3072 0) (e : Fin 1024) :
    concatenate S3072 0 [⟨S1024, x0⟩, ⟨S1024, x1⟩, ⟨S1024, x2⟩] h (ix1 (⟨1024 + e.val, by omega⟩ : Fin 3072))
      = x1 (ix1 e) := by
  refine concatenate_apply_piece (t := S3072) (0 : Fin 1) [⟨S1024, x0⟩, ⟨S1024, x1⟩, ⟨S1024, x2⟩] h
    (ix1 (⟨1024 + e.val, by omega⟩ : Fin 3072)) 1 (by show (1 : Nat) < 3; omega) S1024 x1 rfl rfl 1024 rfl (ix1 e) ?_ ?_
  · intro b
    match b with
    | ⟨0, _⟩ => exact fun hb => absurd rfl hb
  · show 1024 + e.val = 1024 + e.val
    omega

/-- Entry 2048 + e of the three rows end to end is entry e of the third. -/
theorem cat_row_thd (x0 x1 x2 : S1024.Idx → EReal)
    (h : Shape.Concatenates [S1024, S1024, S1024] S3072 0) (e : Fin 1024) :
    concatenate S3072 0 [⟨S1024, x0⟩, ⟨S1024, x1⟩, ⟨S1024, x2⟩] h (ix1 (⟨2048 + e.val, by omega⟩ : Fin 3072))
      = x2 (ix1 e) := by
  refine concatenate_apply_piece (t := S3072) (0 : Fin 1) [⟨S1024, x0⟩, ⟨S1024, x1⟩, ⟨S1024, x2⟩] h
    (ix1 (⟨2048 + e.val, by omega⟩ : Fin 3072)) 2 (by show (2 : Nat) < 3; omega) S1024 x2 rfl rfl 2048 rfl (ix1 e) ?_ ?_
  · intro b
    match b with
    | ⟨0, _⟩ => exact fun hb => absurd rfl hb
  · show 2048 + e.val = 2048 + e.val
    omega

/-- A row of 3072 cast to a [1, 3072] array reads, at (0, c), the row's entry c. -/
theorem cast_row_apply (x : S3072.Idx → EReal) (h : S3072.ShapeCasts S1x3072) (u : Fin 1) (c : Fin 3072) :
    shapeCast S1x3072 x h (ix2 u c) = x (ix1 c) :=
  shapeCast_apply x h _ _ (by
    have hu : u.val = 0 := by omega
    rw [Shape.rowMajor_val_two, Shape.rowMajor_val_one]
    show c.val = u.val * 3072 + c.val
    rw [hu, Nat.zero_mul, Nat.zero_add])

/-! ## The factor spread over an array -/

/-- The scalar constant spread over a [1024, 1024] array is the constant at every entry. -/
theorem spread2_apply (w : BitVec 32) (h : S_.BroadcastsInDim S1024x1024 (![] : Fin 0 → Fin S1024x1024.rank)) (j : S1024x1024.Idx) :
    broadcastInDim S1024x1024 ![] h (constant (F := Ideal) S_ .f32 w) j = Ideal.ofBits .f32 w :=
  (broadcastInDim_apply _ h _ j ix0 (fun a => a.elim0)).trans (constant_apply _ _)

/-- The scalar constant spread over a row of 1024 is the constant at every entry. -/
theorem spread1_apply (w : BitVec 32) (h : S_.BroadcastsInDim S1024 (![] : Fin 0 → Fin S1024.rank)) (j : S1024.Idx) :
    broadcastInDim S1024 ![] h (constant (F := Ideal) S_ .f32 w) j = Ideal.ofBits .f32 w :=
  (broadcastInDim_apply _ h _ j ix0 (fun a => a.elim0)).trans (constant_apply _ _)

/-! ## Before the first call: the three weight matrices side by side, and the three biases end to end -/

/-- The weights the first call reads: the query weights transposed and scaled, the key weights transposed, the value
    weights transposed, side by side. -/
theorem wall_eq (W : Valuation τ sig (Elt Ideal)) :
    (StableHlo.after (hostOps0 (F := Ideal)) W (Proc.devRef .tc main_v6) : S1024x3072.Idx → EReal)
      = truncf .bf16 (concatenate S1024x3072 1
          [⟨S1024x1024, mulf (transpose S1024x1024 [1, 0] (W (Proc.devRef .tc main_arg1) : S1024x1024.Idx → EReal) Facts₀.transposes_S1024x1024_S1024x1024_1_0)
              (broadcastInDim S1024x1024 ![] Facts₀.bcast_S_S1024x1024 (constant (F := Ideal) S_ .f32 0x3D000000#32))⟩,
           ⟨S1024x1024, transpose S1024x1024 [1, 0] (W (Proc.devRef .tc main_arg3) : S1024x1024.Idx → EReal) Facts₀.transposes_S1024x1024_S1024x1024_1_0⟩,
           ⟨S1024x1024, transpose S1024x1024 [1, 0] (W (Proc.devRef .tc main_arg5) : S1024x1024.Idx → EReal) Facts₀.transposes_S1024x1024_S1024x1024_1_0⟩]
          Facts₀.concatenates_S1024x1024_S1024x1024_S1024x1024_S1024x3072_d1) Facts₀.bitsLt_bf16_f32 := by
  host_results; rfl

/-- Columns 0 … 1023 of the weights: entry (d, e) is the query weight (e, d) times the factor. -/
theorem wall_q (W : Valuation τ sig (Elt Ideal)) (d e : Fin 1024) :
    (StableHlo.after (hostOps0 (F := Ideal)) W (Proc.devRef .tc main_v6) : S1024x3072.Idx → EReal) (ix2 d (⟨e.val, by omega⟩ : Fin 3072))
      = HMul.hMul (α := EReal) (β := EReal) (γ := EReal) ((W (Proc.devRef .tc main_arg1) : S1024x1024.Idx → EReal) (ix2 e d)) Cert.Attention.scaleFolded := by
  rw [wall_eq, truncf_apply, cat_cols_fst, mulf_apply, transpose_ix2_apply, spread2_apply]
  rfl

/-- Columns 1024 … 2047 of the weights: entry (d, 1024 + e) is the key weight (e, d). -/
theorem wall_k (W : Valuation τ sig (Elt Ideal)) (d e : Fin 1024) :
    (StableHlo.after (hostOps0 (F := Ideal)) W (Proc.devRef .tc main_v6) : S1024x3072.Idx → EReal) (ix2 d (⟨1024 + e.val, by omega⟩ : Fin 3072))
      = (W (Proc.devRef .tc main_arg3) : S1024x1024.Idx → EReal) (ix2 e d) := by
  rw [wall_eq, truncf_apply, cat_cols_snd, transpose_ix2_apply]

/-- Columns 2048 … 3071 of the weights: entry (d, 2048 + e) is the value weight (e, d). -/
theorem wall_v (W : Valuation τ sig (Elt Ideal)) (d e : Fin 1024) :
    (StableHlo.after (hostOps0 (F := Ideal)) W (Proc.devRef .tc main_v6) : S1024x3072.Idx → EReal) (ix2 d (⟨2048 + e.val, by omega⟩ : Fin 3072))
      = (W (Proc.devRef .tc main_arg5) : S1024x1024.Idx → EReal) (ix2 e d) := by
  rw [wall_eq, truncf_apply, cat_cols_thd, transpose_ix2_apply]

/-- The biases the first call reads: the query bias scaled, the key bias, the value bias, end to end, as one row. -/
theorem ball_eq (W : Valuation τ sig (Elt Ideal)) :
    (StableHlo.after (hostOps0 (F := Ideal)) W (Proc.devRef .tc main_v10) : S1x3072.Idx → EReal)
      = shapeCast S1x3072 (concatenate S3072 0
          [⟨S1024, mulf (W (Proc.devRef .tc main_arg2) : S1024.Idx → EReal)
              (broadcastInDim S1024 ![] Facts₀.bcast_S_S1024 (constant (F := Ideal) S_ .f32 0x3D000000#32))⟩,
           ⟨S1024, (W (Proc.devRef .tc main_arg4) : S1024.Idx → EReal)⟩,
           ⟨S1024, (W (Proc.devRef .tc main_arg6) : S1024.Idx → EReal)⟩]
          Facts₀.concatenates_S1024_S1024_S1024_S3072_d0) Facts₀.shapeCasts_S3072_S1x3072 := by
  host_results; rfl

/-- Entries 0 … 1023 of the bias row: entry e is the query bias e times the factor. -/
theorem ball_q (W : Valuation τ sig (Elt Ideal)) (e : Fin 1024) :
    (StableHlo.after (hostOps0 (F := Ideal)) W (Proc.devRef .tc main_v10) : S1x3072.Idx → EReal) (ix2 (0 : Fin 1) (⟨e.val, by omega⟩ : Fin 3072))
      = HMul.hMul (α := EReal) (β := EReal) (γ := EReal) ((W (Proc.devRef .tc main_arg2) : S1024.Idx → EReal) (ix1 e)) Cert.Attention.scaleFolded := by
  rw [ball_eq, cast_row_apply, cat_row_fst, mulf_apply, spread1_apply]
  rfl

/-- Entries 1024 … 2047 of the bias row: entry 1024 + e is the key bias e. -/
theorem ball_k (W : Valuation τ sig (Elt Ideal)) (e : Fin 1024) :
    (StableHlo.after (hostOps0 (F := Ideal)) W (Proc.devRef .tc main_v10) : S1x3072.Idx → EReal) (ix2 (0 : Fin 1) (⟨1024 + e.val, by omega⟩ : Fin 3072))
      = (W (Proc.devRef .tc main_arg4) : S1024.Idx → EReal) (ix1 e) := by
  rw [ball_eq, cast_row_apply, cat_row_snd]

/-- Entries 2048 … 3071 of the bias row: entry 2048 + e is the value bias e. -/
theorem ball_v (W : Valuation τ sig (Elt Ideal)) (e : Fin 1024) :
    (StableHlo.after (hostOps0 (F := Ideal)) W (Proc.devRef .tc main_v10) : S1x3072.Idx → EReal) (ix2 (0 : Fin 1) (⟨2048 + e.val, by omega⟩ : Fin 3072))
      = (W (Proc.devRef .tc main_arg6) : S1024.Idx → EReal) (ix1 e) := by
  rw [ball_eq, cast_row_apply, cat_row_thd]

end Cert.KernelIdeal.HostValue

end
-- ==== Proof.KernelValue.lean ====
/-
  The result array of the program, index by index, as a function of the launch arrays: attention with the factor
  1/32 folded into the query projection.

  Read backwards through the program.  The attention call leaves at (n, s, e) the weighted sum over the key rows j of
  sequence n of the value entry (n, j, e), the weights being those of the scores of query row (n, s) against key rows
  (n, j).  Query, key and value rows are the three reshaped outputs of the projection call, whose row n·2048 + s is the
  row s of sequence n.  The projection call leaves in its three outputs the three thirds of the flattened input times
  the joined weights plus the joined bias; the joined weights are the three transposed weight matrices side by side,
  the query's third multiplied by 1/32, and likewise the bias.  So the query rows are the scaled projection, the key and
  value rows the plain ones.
-/
import proofs.«173296_j13632226198096_2_alg».proof.Proof.HandRun
import proofs.«173296_j13632226198096_2_alg».proof.Proof.Value0
import proofs.«173296_j13632226198096_2_alg».proof.Proof.Value1
import proofs.«173296_j13632226198096_2_alg».proof.Proof.HostStretch
import proofs.«173296_j13632226198096_2_alg».proof.Proof.AttnSpec

noncomputable section

namespace Cert.KernelIdeal.KernelValue

open Cert.KernelIdeal Cert.KernelIdeal.Gen Cert.KernelIdeal.Hand
open Idealize.ShloMosaic Idealize.ShloMosaic.TcCoe Idealize.SL.Sem Idealize.ShloMosaic.ValueIdx
open Cert.Attention

variable (m : (ℓ : Loc nD τ sig) → Buf (Elt Ideal) ℓ) (ρ : Dev nD → PrngReg)

/-- The launch arrays as the specification's curried functions. -/
abbrev aX (c : Dev nD) : Seqs := fun n s d => (m ((c.tc : Thread nD τ).loc main_arg0) : S4x2048x1024.Idx → EReal) (ix3 n s d)
abbrev aWq (c : Dev nD) : Weights := fun e d => (m ((c.tc : Thread nD τ).loc main_arg1) : S1024x1024.Idx → EReal) (ix2 e d)
abbrev abq (c : Dev nD) : Bias := fun e => (m ((c.tc : Thread nD τ).loc main_arg2) : S1024.Idx → EReal) (ix1 e)
abbrev aWk (c : Dev nD) : Weights := fun e d => (m ((c.tc : Thread nD τ).loc main_arg3) : S1024x1024.Idx → EReal) (ix2 e d)
abbrev abk (c : Dev nD) : Bias := fun e => (m ((c.tc : Thread nD τ).loc main_arg4) : S1024.Idx → EReal) (ix1 e)
abbrev aWv (c : Dev nD) : Weights := fun e d => (m ((c.tc : Thread nD τ).loc main_arg5) : S1024x1024.Idx → EReal) (ix2 e d)
abbrev abv (c : Dev nD) : Bias := fun e => (m ((c.tc : Thread nD τ).loc main_arg6) : S1024.Idx → EReal) (ix1 e)

/-- Row n·2048 + s of the flattened input is row s of sequence n. -/
theorem x_row (c : Dev nD) (n : Fin 4) (s : Fin 2048) (d : Fin 1024) :
    (E0 m ρ c main_v12 : S8192x1024.Idx → EReal) (ix2 (⟨n.val * 2048 + s.val, by omega⟩ : Fin 8192) d) = aX m c n s d :=
  HostValue.x2d_apply (B0 m ρ c) n s d

/-- The query rows the projection call leaves: the projection with 1/32 folded into weights and bias. -/
theorem q_row (c : Dev nD) (n : Fin 4) (s : Fin 2048) (e : Fin 1024) :
    (B2 m ρ c (Proc.devRef .tc main_v13_0) : S8192x1024.Idx → EReal) (ix2 (⟨n.val * 2048 + s.val, by omega⟩ : Fin 8192) e)
      = projScaled scaleFolded (aX m c) (aWq m c) (abq m c) n s e := by
  have h : B2 m ρ c (Proc.devRef .tc main_v13_0) = (dat0 (E0 m ρ) c).arrAt 3 cfg0.N := B2_arr m ρ c 3
  refine (congrFun h _).trans ((Value0.final_q (E0 m ρ) c _ e).trans ?_)
  unfold projScaled
  refine congrArg₂ (· + ·) (Finset.sum_congr rfl fun d _ => ?_) ?_
  · exact congrArg₂ (· * ·) (x_row m ρ c n s d) (HostValue.wall_q (B0 m ρ c) d e)
  · exact HostValue.ball_q (B0 m ρ c) e

/-- The key rows: the plain projection. -/
theorem k_row (c : Dev nD) (n : Fin 4) (s : Fin 2048) (e : Fin 1024) :
    (B2 m ρ c (Proc.devRef .tc main_v13_1) : S8192x1024.Idx → EReal) (ix2 (⟨n.val * 2048 + s.val, by omega⟩ : Fin 8192) e)
      = proj (aX m c) (aWk m c) (abk m c) n s e := by
  have h : B2 m ρ c (Proc.devRef .tc main_v13_1) = (dat0 (E0 m ρ) c).arrAt 4 cfg0.N := B2_arr m ρ c 4
  refine (congrFun h _).trans ((Value0.final_k (E0 m ρ) c _ e).trans ?_)
  unfold proj
  refine congrArg₂ (· + ·) (Finset.sum_congr rfl fun d _ => ?_) ?_
  · exact congrArg₂ (· * ·) (x_row m ρ c n s d) (HostValue.wall_k (B0 m ρ c) d e)
  · exact HostValue.ball_k (B0 m ρ c) e

/-- The value rows: the plain projection. -/
theorem v_row (c : Dev nD) (n : Fin 4) (s : Fin 2048) (e : Fin 1024) :
    (B2 m ρ c (Proc.devRef .tc main_v13_2) : S8192x1024.Idx → EReal) (ix2 (⟨n.val * 2048 + s.val, by omega⟩ : Fin 8192) e)
      = proj (aX m c) (aWv m c) (abv m c) n s e := by
  have h : B2 m ρ c (Proc.devRef .tc main_v13_2) = (dat0 (E0 m ρ) c).arrAt 5 cfg0.N := B2_arr m ρ c 5
  refine (congrFun h _).trans ((Value0.final_v (E0 m ρ) c _ e).trans ?_)
  unfold proj
  refine congrArg₂ (· + ·) (Finset.sum_congr rfl fun d _ => ?_) ?_
  · exact congrArg₂ (· * ·) (x_row m ρ c n s d) (HostValue.wall_v (B0 m ρ c) d e)
  · exact HostValue.ball_v (B0 m ρ c) e

/-- THE RESULT: the array the attention call leaves is attention with the factor folded into the query projection. -/
theorem result_value (c : Dev nD) (n : Fin 4) (s : Fin 2048) (e : Fin 1024) :
    (B4 m ρ c (Proc.devRef .tc main_v17) : S4x2048x1024.Idx → EReal) (ix3 n s e)
      = attnFolded (aX m c) (aWq m c) (abq m c) (aWk m c) (abk m c) (aWv m c) (abv m c) n s e := by
  have h : B4 m ρ c (Proc.devRef .tc main_v17) = (dat1 (E1 m ρ) c).arrAt 3 cfg1.N := B4_arr m ρ c 3
  refine (congrFun h _).trans ((Value1.final_o (E1 m ρ) c n s e).trans ?_)
  unfold Value1.attnAt attnFolded scoreFolded
  refine congrArg₂ attend (funext fun j => Finset.sum_congr rfl fun d _ => ?_) (funext fun j => ?_)
  · exact congrArg₂ (· * ·) ((HostValue.q3d_apply (B2 m ρ c) n s d).trans (q_row m ρ c n s d))
      ((HostValue.k3d_apply (B2 m ρ c) n j d).trans (k_row m ρ c n j d))
  · exact (HostValue.v3d_apply (B2 m ρ c) n j e).trans (v_row m ρ c n j e)

end Cert.KernelIdeal.KernelValue

end
-- ==== Proof.RefValue.lean ====
/-
  The reference program's result, read entry by entry, is single-head attention with the factor 1/√1024 applied to the
  finished scores (the specification's second arrangement).

  The reference is a chain of host operations over whole arrays.  Each stage is read at one index built from literal
  coordinates: the three projections are a row of the input against a row of the weights plus the bias; the score is the
  inner product of a query row and a key row times the computed factor; the row maximum is a fold of `max` from −∞ over
  the key positions (and taking the maximum with −∞ once more changes nothing, since the fold is at least its start);
  the shifted exponentials, their row sum from 0, the quotient, and the final weighted sum of the value rows follow the
  specification term by term.
-/
import proofs.«173296_j13632226198096_2_alg».proof.Proof.Gen.ReferenceIdeal.Read
import proofs.«173296_j13632226198096_2_alg».proof.Proof.AttnSpec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attention Idealize.ShloMosaic Idealize.ShloMosaic.TcCoe Idealize.SL.Sem Idealize.ShloMosaic.StableHlo Idealize.ShloMosaic.ValueIdx

/-- The batch of input sequences as a function of its three coordinates. -/
abbrev X (x0 : (⟨S4x2048x1024, .f32⟩ : BufTy).Contents (Elt Ideal)) : Seqs := fun n s d => x0 (ix3 n s d)
/-- A weight matrix as a function of its two coordinates. -/
abbrev Wt (w : (⟨S1024x1024, .f32⟩ : BufTy).Contents (Elt Ideal)) : Weights := fun e d => w (ix2 e d)
/-- A bias vector as a function of its coordinate. -/
abbrev Bs (b : (⟨S1024, .f32⟩ : BufTy).Contents (Elt Ideal)) : Bias := fun e => b (ix1 e)

/-- The query projection: entry (n, s, e) of the first product plus the broadcast bias. -/
theorem q_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (n : Fin 4) (s : Fin 2048) (e : Fin 1024) :
    val_main_v3 (F := Ideal) x0 x1 x2 (ix3 n s e) = proj (X x0) (Wt x1) (Bs x2) n s e := by
  rw [val_main_v3_apply, val_main_v0_apply, val_main_v2_apply, val_main_v1_apply]
  show _ + _ = _
  unfold proj
  refine congrArg₂ (· + ·) (Finset.sum_congr rfl fun k _ => ?_) ?_
  · refine congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x2 (funext fun a => Fin.ext (by match a with | ⟨0, _⟩ => rfl))

/-- The key projection at (n, j, e). -/
theorem k_apply (x0 : (⟨S4x2048x1024, .f32⟩ : BufTy).Contents (Elt Ideal)) (x3 : (⟨S1024x1024, .f32⟩ : BufTy).Contents (Elt Ideal)) (x4 : (⟨S1024, .f32⟩ : BufTy).Contents (Elt Ideal)) (n : Fin 4) (s : Fin 2048) (e : Fin 1024) :
    val_main_v7 (F := Ideal) x0 x3 x4 (ix3 n s e) = proj (X x0) (Wt x3) (Bs x4) n s e := by
  rw [val_main_v7_apply, val_main_v4_apply, val_main_v6_apply, val_main_v5_apply]
  show _ + _ = _
  unfold proj
  refine congrArg₂ (· + ·) (Finset.sum_congr rfl fun k _ => ?_) ?_
  · refine congrArg₂ (· * ·) (congrArg x0 ?_) (congrArg x3 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x4 (funext fun a => Fin.ext (by match a with | ⟨0, _⟩ => rfl))

/-- The value projection at (n, j, e). -/
theorem v_apply (x0 : (⟨S4x2048x1024, .f32⟩ : BufTy).Contents (Elt Ideal)) (x5 : (⟨S1024x1024, .f32⟩ : BufTy).Contents (Elt Ideal)) (x6 : (⟨S1024, .f32⟩ : BufTy).Contents (Elt Ideal)) (n : Fin 4) (s : Fin 2048) (e : Fin 1024) :
    val_main_v11 (F := Ideal) x0 x5 x6 (ix3 n s e) = proj (X x0) (Wt x5) (Bs x6) n s e := by
  rw [val_main_v11_apply, val_main_v8_apply, val_main_v10_apply, val_main_v9_apply]
  show _ + _ = _
  unfold proj
  refine congrArg₂ (· + ·) (Finset.sum_congr rfl fun k _ => ?_) ?_
  · refine congrArg₂ (· * ·) (congrArg x0 ?_) (congrArg x5 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x6 (funext fun a => Fin.ext (by match a with | ⟨0, _⟩ => rfl))

/-- The broadcast factor is, at every index, one over the square root of 1024 as the specification spells it. -/
theorem scale_apply (i : S4x2048x2048.Idx) : val_main_v15 (F := Ideal) i = scaleComputed := by
  rw [val_main_v15_apply]
  rfl

section Scores

variable (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))

/-- Row (n, s) of scores as the specification writes it. -/
abbrev scoreRow (n : Fin 4) (s : Fin 2048) : Fin 2048 → EReal :=
  fun j => scoreScaled (X x0) (Wt x1) (Bs x2) (Wt x3) (Bs x4) n s j

/-- The score of query row s against key row j: the inner product of the two projections times the factor. -/
theorem score_apply (n : Fin 4) (s j : Fin 2048) :
    val_main_v16 (F := Ideal) x0 x1 x2 x3 x4 (ix3 n s j) = scoreRow x0 x1 x2 x3 x4 n s j := by
  rw [val_main_v16_apply, val_main_v14_apply, scale_apply]
  show _ * _ = _
  unfold scoreRow scoreScaled
  refine congrArg (· * scaleComputed) (Finset.sum_congr rfl fun k _ => ?_)
  have hl : lidx_main_v14 (ix3 n s j) k = ix3 n s k :=
    funext fun a => Fin.ext (by match a with | ⟨0, _⟩ => rfl | ⟨1, _⟩ => rfl | ⟨2, _⟩ => rfl)
  have hr : ridx_main_v14 (ix3 n s j) k = ix3 n j k :=
    funext fun a => Fin.ext (by match a with | ⟨0, _⟩ => rfl | ⟨1, _⟩ => rfl | ⟨2, _⟩ => rfl)
  rw [hl, hr, q_apply, k_apply]

/-- The key axis is the one the row reductions drop. -/
theorem reduces : S4x2048x2048.Reduces [2] S4x2048 := by decide

/-- Result index (n, s) with key position k put back on the dropped axis is (n, s, k). -/
theorem lift_ix (n : Fin 4) (s : Fin 2048) (k : Fin 2048) :
    reduces.lift (ix2 n s) k = ix3 n s k :=
  funext fun a => Fin.ext (by match a with | ⟨0, _⟩ => rfl | ⟨1, _⟩ => rfl | ⟨2, _⟩ => rfl)

/-- The row maximum: the reduce with a maximum body from −∞ over the key axis is the fold of max over the row. -/
theorem max_apply (n : Fin 4) (s : Fin 2048) :
    val_main_v17 (F := Ideal) x0 x1 x2 x3 x4 (ix2 n s) = rowMax (scoreRow x0 x1 x2 x3 x4 n s) := by
  unfold val_main_v17
  rw [Host.reduce_eq_fold_single FloatOps.maximumf _ _ reducesTo_S4x2048x2048_S4x2048_d2 reduces h_S_]
  unfold rowMax
  have hf : (val_main_v16 (F := Ideal) x0 x1 x2 x3 x4 ∘ reduces.lift (ix2 n s)) = scoreRow x0 x1 x2 x3 x4 n s :=
    funext fun k => (congrArg (val_main_v16 (F := Ideal) x0 x1 x2 x3 x4) (lift_ix n s k)).trans (score_apply x0 x1 x2 x3 x4 n s k)
  exact congrArg (fun f => Finset.fold max (Ideal.ofBits .f32 0xFF800000#32) f (Finset.univ : Finset (Fin 2048))) hf

end Scores

section Softmax

variable (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))

/-- A fold of max is at least its start, so taking the maximum with the start once more changes nothing. -/
theorem max_fold_self (a : EReal) (f : Fin 2048 → EReal) :
    max a ((Finset.univ : Finset (Fin 2048)).fold max a f) = (Finset.univ : Finset (Fin 2048)).fold max a f :=
  max_eq_right ((Finset.le_fold_max a).2 (Or.inl le_rfl))

/-- The maximum of the broadcast −∞ and the row maximum is the row maximum. -/
theorem max2_apply (n : Fin 4) (s : Fin 2048) :
    val_main_v19 (F := Ideal) x0 x1 x2 x3 x4 (ix2 n s) = rowMax (scoreRow x0 x1 x2 x3 x4 n s) := by
  rw [val_main_v19_apply, val_main_v18_apply, val_main_cst_2_apply, max_apply]
  exact max_fold_self _ _

/-- The row maximum broadcast back along the key axis. -/
theorem maxb_apply (n : Fin 4) (s j : Fin 2048) :
    val_main_v21 (F := Ideal) x0 x1 x2 x3 x4 (ix3 n s j) = rowMax (scoreRow x0 x1 x2 x3 x4 n s) := by
  rw [val_main_v21_apply, val_main_v20_apply]
  have hi : idx_main_v20 (idx_main_v21 (ix3 n s j)) = ix2 n s :=
    funext fun a => Fin.ext (by match a with | ⟨0, _⟩ => rfl | ⟨1, _⟩ => rfl)
  rw [hi, max2_apply]

/-- The shifted exponential at (n, s, j). -/
theorem exp_apply (n : Fin 4) (s j : Fin 2048) :
    val_main_v23 (F := Ideal) x0 x1 x2 x3 x4 (ix3 n s j) = expShift (scoreRow x0 x1 x2 x3 x4 n s) j := by
  rw [val_main_v23_apply, val_main_v22_apply, score_apply, maxb_apply]
  rfl

/-- The row sum of the shifted exponentials, from 0. -/
theorem sum_apply (n : Fin 4) (s : Fin 2048) :
    val_main_v24 (F := Ideal) x0 x1 x2 x3 x4 (ix2 n s) = ∑ k : Fin 2048, expShift (scoreRow x0 x1 x2 x3 x4 n s) k := by
  rw [val_main_v24_apply, val_main_cst_3_apply]
  show Ideal.ofBits .f32 0x00000000#32 + _ = _
  rw [Ideal.ofBits_zero_f32, zero_add]
  refine Finset.sum_congr rfl fun k _ => ?_
  have hi : idx_main_v24 (ix2 n s) k = ix3 n s k :=
    funext fun a => Fin.ext (by match a with | ⟨0, _⟩ => rfl | ⟨1, _⟩ => rfl | ⟨2, _⟩ => rfl)
  rw [hi, exp_apply]

/-- The row sum broadcast back along the key axis. -/
theorem sumb_apply (n : Fin 4) (s j : Fin 2048) :
    val_main_v26 (F := Ideal) x0 x1 x2 x3 x4 (ix3 n s j) = ∑ k : Fin 2048, expShift (scoreRow x0 x1 x2 x3 x4 n s) k := by
  rw [val_main_v26_apply, val_main_v25_apply]
  have hi : idx_main_v25 (idx_main_v26 (ix3 n s j)) = ix2 n s :=
    funext fun a => Fin.ext (by match a with | ⟨0, _⟩ => rfl | ⟨1, _⟩ => rfl)
  rw [hi, sum_apply]

/-- The attention weight at (n, s, j): the shifted exponential over the row sum. -/
theorem weights_apply (n : Fin 4) (s j : Fin 2048) :
    val_main_v27 (F := Ideal) x0 x1 x2 x3 x4 (ix3 n s j) = weights (scoreRow x0 x1 x2 x3 x4 n s) j := by
  rw [val_main_v27_apply, exp_apply, sumb_apply]
  rfl

end Softmax

/-- The reference's result at (n, s, e) is attention with the factor applied to the scores. -/
theorem ref_eq (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 4) (s : Fin 2048) (e : Fin 1024) :
    Cert.ReferenceIdeal.Read.val_main_v28 (F := Ideal) x0 x1 x2 x3 x4 x5 x6 (ValueIdx.ix3 n s e)
      = Cert.Attention.attnScaled (fun n s d => x0 (ValueIdx.ix3 n s d)) (fun e d => x1 (ValueIdx.ix2 e d)) (fun e => x2 (ValueIdx.ix1 e)) (fun e d => x3 (ValueIdx.ix2 e d)) (fun e => x4 (ValueIdx.ix1 e)) (fun e d => x5 (ValueIdx.ix2 e d)) (fun e => x6 (ValueIdx.ix1 e)) n s e := by
  rw [val_main_v28_apply]
  show _ = ∑ j : Fin 2048, weights (scoreRow x0 x1 x2 x3 x4 n s) j * proj (X x0) (Wt x5) (Bs x6) n j e
  refine Finset.sum_congr rfl fun k _ => ?_
  have hl : lidx_main_v28 (ix3 n s e) k = ix3 n s k :=
    funext fun a => Fin.ext (by match a with | ⟨0, _⟩ => rfl | ⟨1, _⟩ => rfl | ⟨2, _⟩ => rfl)
  have hr : ridx_main_v28 (ix3 n s e) k = ix3 n k e :=
    funext fun a => Fin.ext (by match a with | ⟨0, _⟩ => rfl | ⟨1, _⟩ => rfl | ⟨2, _⟩ => rfl)
  rw [hl, hr, weights_apply, v_apply]

end Cert.ReferenceIdeal.RefValue

end
-- ==== Proof.AttnLaw.lean ====
/-
  The two arrangements of the attention of `AttnSpec` agree on finite data.

  They differ only in the scores.  In the first the factor 1/32 is multiplied into every query weight and into the
  query bias before the projection; in the second the finished inner product is multiplied by 1/√1024.  On the reals
  this is distributivity of multiplication over the two nested finite sums.  On the extended reals distributivity can
  fail at the infinities, so the inputs of the two projections that enter the scores are assumed real: every entry is
  then the image of a real number, the images are pushed outside the sums and products, and the identity is checked in
  the real field.  The value projection enters both arrangements as literally the same term and needs no hypothesis.
-/
import proofs.«173296_j13632226198096_2_alg».proof.Proof.AttnSpec

noncomputable section

namespace Cert.Attention

open Idealize.ShloMosaic

/-- The inclusion of the reals in the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word 0x3D000000 denotes 2⁻⁵ = 1/32. -/
theorem scaleFolded_eq : scaleFolded = ((1 / 32 : ℝ) : EReal) := by
  unfold scaleFolded
  simp [Ideal.ofBits, Ideal.ieee, -EReal.coe_mul]; norm_num

/-- The word 0x3F800000 denotes 1. -/
theorem ofBits_one : Ideal.ofBits .f32 0x3F800000#32 = ((1 : ℝ) : EReal) := by
  simp [Ideal.ofBits, Ideal.ieee, -EReal.coe_mul]; norm_num

/-- The word 0x44800000 denotes 1024. -/
theorem ofBits_1024 : Ideal.ofBits .f32 0x44800000#32 = ((1024 : ℝ) : EReal) := by
  simp [Ideal.ofBits, Ideal.ieee, -EReal.coe_mul]; norm_num

/-- √1024 = 32, since 32² = 1024. -/
theorem sqrt_1024 : Real.sqrt 1024 = 32 := by
  rw [show (1024 : ℝ) = 32 ^ 2 by norm_num]
  exact Real.sqrt_sq (by norm_num)

/-- One over the square root of 1024 is 1/32. -/
theorem scaleComputed_eq : scaleComputed = ((1 / 32 : ℝ) : EReal) := by
  unfold scaleComputed
  rw [ofBits_one, ofBits_1024, Ideal.sqrt_coe, if_neg (by norm_num), sqrt_1024,
    Ideal.div_coe (by norm_num), ← EReal.coe_mul, one_mul]

/-- The real identity behind the agreement of the scores: a factor multiplied into every weight and into the bias of the
    first projection comes out of the inner product of the two projections, by distributivity over both finite sums. -/
theorem score_real (xs xj : Fin 1024 → ℝ) (Wq Wk : Fin 1024 → Fin 1024 → ℝ) (bq bk : Fin 1024 → ℝ) (c : ℝ) :
    ∑ d : Fin 1024, ((∑ d' : Fin 1024, xs d' * (Wq d d' * c)) + bq d * c) * ((∑ d' : Fin 1024, xj d' * Wk d d') + bk d)
      = (∑ d : Fin 1024, ((∑ d' : Fin 1024, xs d' * Wq d d') + bq d) * ((∑ d' : Fin 1024, xj d' * Wk d d') + bk d)) * c := by
  rw [Finset.sum_mul]
  refine Finset.sum_congr rfl fun d _ => ?_
  have h : (∑ d' : Fin 1024, xs d' * (Wq d d' * c)) = (∑ d' : Fin 1024, xs d' * Wq d d') * c := by
    rw [Finset.sum_mul]; exact Finset.sum_congr rfl fun _ _ => by ring
  rw [h]; ring

/-- On real data the two scores are the same extended real: both are the image of the same real number. -/
theorem scoreFolded_eq_scoreScaled (x : Seqs) (Wq : Weights) (bq : Bias) (Wk : Weights) (bk : Bias)
    (hx : ∀ n s d, ∃ r : ℝ, x n s d = (r : EReal)) (hWq : ∀ e d, ∃ r : ℝ, Wq e d = (r : EReal))
    (hbq : ∀ e, ∃ r : ℝ, bq e = (r : EReal))
    (hWk : ∀ e d, ∃ r : ℝ, Wk e d = (r : EReal)) (hbk : ∀ e, ∃ r : ℝ, bk e = (r : EReal))
    (n : Fin 4) (s j : Fin 2048) :
    scoreFolded x Wq bq Wk bk n s j = scoreScaled x Wq bq Wk bk n s j := by
  choose xr hxr using hx
  choose Wqr hWqr using hWq
  choose bqr hbqr using hbq
  choose Wkr hWkr using hWk
  choose bkr hbkr using hbk
  obtain rfl : x = fun n s d => ((xr n s d : ℝ) : EReal) := by funext n s d; exact hxr n s d
  obtain rfl : Wq = fun e d => ((Wqr e d : ℝ) : EReal) := by funext e d; exact hWqr e d
  obtain rfl : bq = fun e => ((bqr e : ℝ) : EReal) := by funext e; exact hbqr e
  obtain rfl : Wk = fun e d => ((Wkr e d : ℝ) : EReal) := by funext e d; exact hWkr e d
  obtain rfl : bk = fun e => ((bkr e : ℝ) : EReal) := by funext e; exact hbkr e
  unfold scoreFolded scoreScaled projScaled proj
  rw [scaleFolded_eq, scaleComputed_eq]
  simp only [← EReal.coe_mul, ← EReal.coe_add, ← coe_finset_sum]
  exact congrArg _ (score_real (xr n s) (xr n j) Wqr Wkr bqr bkr (1 / 32))

/-- The two arrangements of the attention agree on real query and key data. -/
theorem attnFolded_eq_attnScaled (x : Seqs) (Wq : Weights) (bq : Bias) (Wk : Weights) (bk : Bias) (Wv : Weights) (bv : Bias)
    (hx : ∀ n s d, ∃ r : ℝ, x n s d = (r : EReal)) (hWq : ∀ e d, ∃ r : ℝ, Wq e d = (r : EReal)) (hbq : ∀ e, ∃ r : ℝ, bq e = (r : EReal))
    (hWk : ∀ e d, ∃ r : ℝ, Wk e d = (r : EReal)) (hbk : ∀ e, ∃ r : ℝ, bk e = (r : EReal))
    (n : Fin 4) (s : Fin 2048) (e : Fin 1024) :
    attnFolded x Wq bq Wk bk Wv bv n s e = attnScaled x Wq bq Wk bk Wv bv n s e := by
  unfold attnFolded attnScaled
  congr 1
  funext j
  exact scoreFolded_eq_scoreScaled x Wq bq Wk bk hx hWq hbq hWk hbk n s j

end Cert.Attention

end
-- ==== Proof.FiniteInputs.lean ====
/-
  From the printed finiteness predicate to "every entry is a real number".

  The predicate is the conjunction, over the seven input arrays, of "every entry has absolute value below +∞".  Each
  conjunct is a reduction by `and` of an array of one-bit comparisons down to a single bit, and the seven bits are
  and-ed together.  If the result is 1 then every one of the seven bits is 1, so every comparison in every array came
  out 1, that is, max x (−x) < +∞ at every entry x.  An extended real with that property is neither +∞ (then x itself is
  +∞) nor −∞ (then −x is +∞), so it is the image of a real number.
-/
import proofs.«173296_j13632226198096_2_alg».proof.Pre_finite_inputs
import proofs.«173296_j13632226198096_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The shape with no axes has exactly one index. -/
instance : Subsingleton S_.Idx := ⟨fun a b => funext fun d => d.elim0⟩

/-- An extended real whose absolute value max x (−x) is below +∞ (the word 0x7F800000) is a real number: at +∞ the
    maximum is +∞ through x, at −∞ through −x, and neither is below +∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the finiteness predicate holds of the seven arrays, every entry of every array is a real number. -/
theorem real_of_pre [Cert.Pre_finite_inputs.Facts]
    (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  -- the predicate's one bit, as the nested conjunction of the seven reductions
  have h0 := congrFun h ValueIdx.ix0
  dsimp only [fn, fn_part1] at h0
  -- a conjunction of bits is 1 only if both are: peel the seven reductions off, last first
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  -- a reduction by `and` over all axes that is 1 met a 1 at every index; that 1 is the comparison |x| < +∞ at the entry
  refine ⟨fun i => ?_, fun i => ?_, fun i => ?_, fun i => ?_, fun i => ?_, fun i => ?_, fun i => ?_⟩
  · exact real_of_abs_lt_top (a0 i) (Host.reduce_andi_all _ _ _ _ _ e0 i)
  · exact real_of_abs_lt_top (a1 i) (Host.reduce_andi_all _ _ _ _ _ e1 i)
  · exact real_of_abs_lt_top (a2 i) (Host.reduce_andi_all _ _ _ _ _ e2 i)
  · exact real_of_abs_lt_top (a3 i) (Host.reduce_andi_all _ _ _ _ _ e3 i)
  · exact real_of_abs_lt_top (a4 i) (Host.reduce_andi_all _ _ _ _ _ e4 i)
  · exact real_of_abs_lt_top (a5 i) (Host.reduce_andi_all _ _ _ _ _ e5 i)
  · exact real_of_abs_lt_top (a6 i) (Host.reduce_andi_all _ _ _ _ _ e6 i)

end Cert.FiniteInputs

end
-- ==== Proof.lean ====
/-
  Single-head self-attention, f32[4, 2048, 1024] against three 1024×1024 projections: a two-call pipelined kernel
  against the plain array program, equal as extended reals under finite inputs.

  The kernel prepares its operands on the host — the three weight matrices transposed and joined side by side, the
  query's third multiplied by 1/32 = 1/√1024, the biases joined likewise, the input flattened to 8192 rows —, projects
  512 rows at a time in its first call (one matrix product against the joined weights, plus the joined bias, split into
  query, key and value thirds), and in its second call, for each sequence and each tile of 512 query rows, scores the
  queries against all 2048 keys, takes the row-wise shifted exponentials over their row sums, and averages the value
  rows with them.  The reference projects with the unscaled weights and multiplies the scores by 1/√1024.

  At the ideal instance a change of float format is the identity and every sum is exact, so the kernel computes
  attention with the factor folded into the query projection and the reference attention with the factor applied to
  the scores.  For finite inputs the two scores are the same real number (distributivity of the factor over the two
  nested sums, and √1024 = 32), and everything after the scores is one function of the same values.

  The three frames: both kernel programs run their two calls to the end from any memory, each call changing only its
  output arrays, so every argument ends as launched; the reference's frame is its run with the result dropped.  The
  idealization rewrote nothing, so there is nothing to preserve.
-/
import proofs.«173296_j13632226198096_2_alg».proof.Defs
import proofs.«173296_j13632226198096_2_alg».proof.Proof.Gen.Kernel
import proofs.«173296_j13632226198096_2_alg».proof.Proof.Gen.KernelIdeal
import proofs.«173296_j13632226198096_2_alg».proof.Proof.Gen.ReferenceIdeal
import proofs.«173296_j13632226198096_2_alg».proof.Proof.Gen.ReferenceIdeal.Run
import proofs.«173296_j13632226198096_2_alg».proof.Proof.Gen.ReferenceIdeal.Read
import proofs.«173296_j13632226198096_2_alg».proof.Proof.Gen.Pre_finite_inputs
import proofs.«173296_j13632226198096_2_alg».proof.Proof.BitsRun
import proofs.«173296_j13632226198096_2_alg».proof.Proof.HandRun
import proofs.«173296_j13632226198096_2_alg».proof.Proof.KernelValue
import proofs.«173296_j13632226198096_2_alg».proof.Proof.RefValue
import proofs.«173296_j13632226198096_2_alg».proof.Proof.AttnLaw
import proofs.«173296_j13632226198096_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as launched. -/
theorem frame_k : Cert.frame_Kernel := fun m ρ _ => Cert.Kernel.Hand.frame m ρ

/-- So does the kernel read at the ideal instance. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal.Hand Cert.KernelIdeal.KernelValue in
/-- Both programs end at attention of the launch arrays: the kernel's result array is the folded arrangement (read
    back through its two calls), the reference's the scaled one (its run read stage by stage), and for finite inputs
    the two arrangements agree. -/
theorem algebraic : Cert.algebraic_KernelIdeal_ReferenceIdeal := by
  intro m ρ m' ρ' hpre hagree
  refine ⟨fun c => B4 m ρ c (Proc.devRef .tc Cert.KernelIdeal.main_v17), ?_, ?_⟩
  · exact (θ_run Cert.KernelIdeal.defs _ _).mono (fun r h c =>
      ⟨h c _ (mem_uc Cert.KernelIdeal.main_v17 (by decide)),
       (h c _ (mem_uc Cert.KernelIdeal.main_arg0 (by decide))).trans (B4_main_arg0 m ρ c),
       (h c _ (mem_uc Cert.KernelIdeal.main_arg1 (by decide))).trans (B4_main_arg1 m ρ c),
       (h c _ (mem_uc Cert.KernelIdeal.main_arg2 (by decide))).trans (B4_main_arg2 m ρ c),
       (h c _ (mem_uc Cert.KernelIdeal.main_arg3 (by decide))).trans (B4_main_arg3 m ρ c),
       (h c _ (mem_uc Cert.KernelIdeal.main_arg4 (by decide))).trans (B4_main_arg4 m ρ c),
       (h c _ (mem_uc Cert.KernelIdeal.main_arg5 (by decide))).trans (B4_main_arg5 m ρ c),
       (h c _ (mem_uc Cert.KernelIdeal.main_arg6 (by decide))).trans (B4_main_arg6 m ρ c)⟩) (run_all m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    obtain ⟨f0, f1, f2, f3, f4, -, -⟩ := Cert.FiniteInputs.real_of_pre _ _ _ _ _ _ _ (hpre c)
    rw [Cert.ReferenceIdeal.Read.val_main_v28_eq, h0, h1, h2, h3, h4, h5, h6]
    funext i
    obtain ⟨n, s, e, rfl⟩ : ∃ (n : Fin 4) (s : Fin 2048) (e : Fin 1024), i = ix3 n s e := ⟨i 0, i 1, i 2, eq_ix3 i⟩
    refine (Cert.ReferenceIdeal.RefValue.ref_eq _ _ _ _ _ _ _ n s e).trans ?_
    refine ((Cert.Attention.attnFolded_eq_attnScaled (aX m c) (aWq m c) (abq m c) (aWk m c) (abk m c) (aWv m c) (abv m c)
      (fun n s d => f0 (ix3 n s d)) (fun e d => f1 (ix2 e d)) (fun e => f2 (ix1 e)) (fun e d => f3 (ix2 e d)) (fun e => f4 (ix1 e)) n s e).symm).trans ?_
    exact (result_value m ρ c n s e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
